-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1000000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S4000x128 : Shape := ⟨2, ![4000, 128]⟩
abbrev S1100000x128 : Shape := ⟨2, ![1100000, 128]⟩
abbrev S1x128 : Shape := ⟨2, ![1, 128]⟩
abbrev S4000 : Shape := ⟨1, ![4000]⟩
abbrev S4000x1 : Shape := ⟨2, ![4000, 1]⟩
abbrev S100000x64 : Shape := ⟨2, ![100000, 64]⟩
abbrev S4000x64 : Shape := ⟨2, ![4000, 64]⟩
abbrev S1100000x64 : Shape := ⟨2, ![1100000, 64]⟩
abbrev S1x64 : Shape := ⟨2, ![1, 64]⟩

abbrev nBuf : Space → Nat
  | .hbm => 115
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S100000, .i32⟩
  | .hbm, ⟨13, _⟩ => ⟨S1x1000000, .i32⟩
  | .hbm, ⟨14, _⟩ => ⟨S1000000, .i32⟩
  | .hbm, ⟨15, _⟩ => ⟨S1100000, .i32⟩
  | .hbm, ⟨16, _⟩ => ⟨S1x1000000, .i32⟩
  | .hbm, ⟨17, _⟩ => ⟨S1000000, .i32⟩
  | .hbm, ⟨18, _⟩ => ⟨S1100000, .i32⟩
  | .hbm, ⟨19, _⟩ => ⟨S_, .f32⟩
  | .hbm, ⟨20, _⟩ => ⟨S1100000, .f32⟩
  | .hbm, ⟨21, _⟩ => ⟨S_, .f32⟩
  | .hbm, ⟨22, _⟩ => ⟨S100000, .f32⟩
  | .hbm, ⟨23, _⟩ => ⟨S1100000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1100000, .i32⟩
  | .hbm, ⟨35, _⟩ => ⟨S1100000, .i1⟩
  | .hbm, ⟨36, _⟩ => ⟨S_, .i32⟩
  | .hbm, ⟨37, _⟩ => ⟨S1100000, .i32⟩
  | .hbm, ⟨38, _⟩ => ⟨S1100000, .i32⟩
  | .hbm, ⟨39, _⟩ => ⟨S1100000, .i32⟩
  | .hbm, ⟨40, _⟩ => ⟨S1100000x1, .i32⟩
  | .hbm, ⟨41, _⟩ => ⟨S1100000, .f32⟩
  | .hbm, ⟨42, _⟩ => ⟨S_, .i32⟩
  | .hbm, ⟨43, _⟩ => ⟨S1100000, .i32⟩
  | .hbm, ⟨44, _⟩ => ⟨S1100000, .i1⟩
  | .hbm, ⟨45, _⟩ => ⟨S_, .i32⟩
  | .hbm, ⟨46, _⟩ => ⟨S1100000, .i32⟩
  | .hbm, ⟨47, _⟩ => ⟨S1100000, .i32⟩
  | .hbm, ⟨48, _⟩ => ⟨S1100000, .i32⟩
  | .hbm, ⟨49, _⟩ => ⟨S1100000x1, .i32⟩
  | .hbm, ⟨50, _⟩ => ⟨S1100000, .f32⟩
  | .hbm, ⟨51, _⟩ => ⟨S1100000, .f32⟩
  | .hbm, ⟨52, _⟩ => ⟨S100000x128, .f32⟩
  | .hbm, ⟨53, _⟩ => ⟨S_, .i32⟩
  | .hbm, ⟨54, _⟩ => ⟨S1100000, .i32⟩
  | .hbm, ⟨55, _⟩ => ⟨S1100000, .i1⟩
  | .hbm, ⟨56, _⟩ => ⟨S_, .i32⟩
  | .hbm, ⟨57, _⟩ => ⟨S1100000, .i32⟩
  | .hbm, ⟨58, _⟩ => ⟨S1100000, .i32⟩
  | .hbm, ⟨59, _⟩ => ⟨S1100000, .i32⟩
  | .hbm, ⟨60, _⟩ => ⟨S1100000x1, .i32⟩
  | .hbm, ⟨61, _⟩ => ⟨S1100000x128, .f32⟩
  | .hbm, ⟨62, _⟩ => ⟨S1100000x1, .f32⟩
  | .hbm, ⟨63, _⟩ => ⟨S1100000x128, .f32⟩
  | .hbm, ⟨64, _⟩ => ⟨S1100000x128, .f32⟩
  | .hbm, ⟨65, _⟩ => ⟨S_, .f32⟩
  | .hbm, ⟨66, _⟩ => ⟨S100000x128, .f32⟩
  | .hbm, ⟨67, _⟩ => ⟨S1100000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S1x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1100000, .i32⟩
  | .hbm, ⟨77, _⟩ => ⟨S1100000, .i1⟩
  | .hbm, ⟨78, _⟩ => ⟨S_, .i32⟩
  | .hbm, ⟨79, _⟩ => ⟨S1100000, .i32⟩
  | .hbm, ⟨80, _⟩ => ⟨S1100000, .i32⟩
  | .hbm, ⟨81, _⟩ => ⟨S1100000, .i32⟩
  | .hbm, ⟨82, _⟩ => ⟨S1100000x1, .i32⟩
  | .hbm, ⟨83, _⟩ => ⟨S1100000x128, .f32⟩
  | .hbm, ⟨84, _⟩ => ⟨S1100000x1, .f32⟩
  | .hbm, ⟨85, _⟩ => ⟨S1100000x128, .f32⟩
  | .hbm, ⟨86, _⟩ => ⟨S1100000x128, .f32⟩
  | .hbm, ⟨87, _⟩ => ⟨S_, .f32⟩
  | .hbm, ⟨88, _⟩ => ⟨S100000x128, .f32⟩
  | .hbm, ⟨89, _⟩ => ⟨S1100000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S1x128, .f32⟩
  | .hbm, ⟨94, _⟩ => ⟨S1x128, .f32⟩
  | .hbm, ⟨95, _⟩ => ⟨S100000x128, .f32⟩
  | .hbm, ⟨96, _⟩ => ⟨S100000x64, .f32⟩
  | .hbm, ⟨97, _⟩ => ⟨S_, .i32⟩
  | .hbm, ⟨98, _⟩ => ⟨S1100000, .i32⟩
  | .hbm, ⟨99, _⟩ => ⟨S1100000, .i1⟩
  | .hbm, ⟨100, _⟩ => ⟨S_, .i32⟩
  | .hbm, ⟨101, _⟩ => ⟨S1100000, .i32⟩
  | .hbm, ⟨102, _⟩ => ⟨S1100000, .i32⟩
  | .hbm, ⟨103, _⟩ => ⟨S1100000, .i32⟩
  | .hbm, ⟨104, _⟩ => ⟨S1100000x1, .i32⟩
  | .hbm, ⟨105, _⟩ => ⟨S1100000x64, .f32⟩
  | .hbm, ⟨106, _⟩ => ⟨S1100000x1, .f32⟩
  | .hbm, ⟨107, _⟩ => ⟨S1100000x64, .f32⟩
  | .hbm, ⟨108, _⟩ => ⟨S1100000x64, .f32⟩
  | .hbm, ⟨109, _⟩ => ⟨S_, .f32⟩
  | .hbm, ⟨110, _⟩ => ⟨S100000x64, .f32⟩
  | .hbm, ⟨111, _⟩ => ⟨S1100000x1, .i32⟩
  | .hbm, ⟨112, _⟩ => ⟨S100000x64, .f32⟩
  | .hbm, ⟨113, _⟩ => ⟨S1x64, .f32⟩
  | .hbm, ⟨114, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S1x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S1x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S1x64, .f32⟩
  | .local _ .vmem, ⟨40, _⟩ => ⟨S4000x64, .f32⟩
  | .local _ .vmem, ⟨41, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_12 : Ref sig .tc := ⟨.hbm, 97, rfl⟩
abbrev main_v69 : Ref sig .tc := ⟨.hbm, 98, rfl⟩
abbrev main_v70 : Ref sig .tc := ⟨.hbm, 99, rfl⟩
abbrev main_c_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_14 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S4000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S4000x128_S128x128_S4000x128_1_0_0_1_n_n_wf : DotDims.WF S4000x128 S128x128 S4000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S4000x128_S128x64_S4000x64_1_0_0_1_n_n_wf : DotDims.WF S4000x128 S128x64 S4000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S100000x128.size a
  hwx5_3 : ∀ i : grid5.Coords, EltTy.bits .f32 = 32 ∨ (Rect.block (s := S100000x128) S4000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x64.size a ≤ S100000x64.size a
  hwx6_2 : ∀ i : grid6.Coords, EltTy.bits .f32 = 32 ∨ (Rect.block (s := S100000x64) S4000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S100000x64.size a
  hwx7_0 : ∀ i : grid7.Coords, EltTy.bits .f32 = 32 ∨ (Rect.block (s := S100000x64) S4000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x64.size a ≤ S100000x64.size a
  hwx7_2 : ∀ i : grid7.Coords, EltTy.bits .f32 = 32 ∨ (Rect.block (s := S100000x64) S4000x64.size (cc7_transform_2 i) (hinb7_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v48) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v67) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v68) S4000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v81) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v82) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v83) S4000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S100000x1 : Shape := ⟨2, ![100000, 1]⟩
abbrev S100000x64 : Shape := ⟨2, ![100000, 64]⟩
abbrev S1100000x64 : Shape := ⟨2, ![1100000, 64]⟩
abbrev S1x64 : Shape := ⟨2, ![1, 64]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S2x1000000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128, .f32⟩
  | 9 => ⟨S128, .f32⟩
  | 10 => ⟨S128, .f32⟩
  | 11 => ⟨S128, .f32⟩
  | 12 => ⟨S100000, .i32⟩
  | 13 => ⟨S1x1000000, .i32⟩
  | 14 => ⟨S1000000, .i32⟩
  | 15 => ⟨S1100000, .i32⟩
  | 16 => ⟨S1x1000000, .i32⟩
  | 17 => ⟨S1000000, .i32⟩
  | 18 => ⟨S1100000, .i32⟩
  | 19 => ⟨S_, .f32⟩
  | 20 => ⟨S1100000, .f32⟩
  | 21 => ⟨S_, .f32⟩
  | 22 => ⟨S100000, .f32⟩
  | 23 => ⟨S1100000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1100000, .i32⟩
  | 35 => ⟨S1100000, .i1⟩
  | 36 => ⟨S_, .i32⟩
  | 37 => ⟨S1100000, .i32⟩
  | 38 => ⟨S1100000, .i32⟩
  | 39 => ⟨S1100000, .i32⟩
  | 40 => ⟨S1100000x1, .i32⟩
  | 41 => ⟨S1100000, .f32⟩
  | 42 => ⟨S_, .i32⟩
  | 43 => ⟨S1100000, .i32⟩
  | 44 => ⟨S1100000, .i1⟩
  | 45 => ⟨S_, .i32⟩
  | 46 => ⟨S1100000, .i32⟩
  | 47 => ⟨S1100000, .i32⟩
  | 48 => ⟨S1100000, .i32⟩
  | 49 => ⟨S1100000x1, .i32⟩
  | 50 => ⟨S1100000, .f32⟩
  | 51 => ⟨S1100000, .f32⟩
  | 52 => ⟨S100000x128, .f32⟩
  | 53 => ⟨S_, .i32⟩
  | 54 => ⟨S1100000, .i32⟩
  | 55 => ⟨S1100000, .i1⟩
  | 56 => ⟨S_, .i32⟩
  | 57 => ⟨S1100000, .i32⟩
  | 58 => ⟨S1100000, .i32⟩
  | 59 => ⟨S1100000, .i32⟩
  | 60 => ⟨S1100000x1, .i32⟩
  | 61 => ⟨S1100000x128, .f32⟩
  | 62 => ⟨S1100000x1, .f32⟩
  | 63 => ⟨S1100000x128, .f32⟩
  | 64 => ⟨S1100000x128, .f32⟩
  | 65 => ⟨S_, .f32⟩
  | 66 => ⟨S100000x128, .f32⟩
  | 67 => ⟨S1100000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S_, .f32⟩
  | 90 => ⟨S100000x1, .f32⟩
  | 91 => ⟨S100000x1, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S_, .i32⟩
  | 106 => ⟨S1100000, .i32⟩
  | 107 => ⟨S1100000, .i1⟩
  | 108 => ⟨S_, .i32⟩
  | 109 => ⟨S1100000, .i32⟩
  | 110 => ⟨S1100000, .i32⟩
  | 111 => ⟨S1100000, .i32⟩
  | 112 => ⟨S1100000x1, .i32⟩
  | 113 => ⟨S1100000x128, .f32⟩
  | 114 => ⟨S1100000x1, .f32⟩
  | 115 => ⟨S1100000x128, .f32⟩
  | 116 => ⟨S1100000x128, .f32⟩
  | 117 => ⟨S_, .f32⟩
  | 118 => ⟨S100000x128, .f32⟩
  | 119 => ⟨S1100000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000, .f32⟩
  | 126 => ⟨S100000x1, .f32⟩
  | 127 => ⟨S_, .f32⟩
  | _ => ⟨S100000x128, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | 4 => ⟨S100000x128, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x128, .f32⟩
  | 12 => ⟨S100000x128, .f32⟩
  | 13 => ⟨S_, .f32⟩
  | 14 => ⟨S100000x1, .f32⟩
  | 15 => ⟨S100000x1, .f32⟩
  | 16 => ⟨S100000x1, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x64, .f32⟩
  | 29 => ⟨S_, .i32⟩
  | 30 => ⟨S1100000, .i32⟩
  | 31 => ⟨S1100000, .i1⟩
  | 32 => ⟨S_, .i32⟩
  | 33 => ⟨S1100000, .i32⟩
  | 34 => ⟨S1100000, .i32⟩
  | 35 => ⟨S1100000, .i32⟩
  | 36 => ⟨S1100000x1, .i32⟩
  | 37 => ⟨S1100000x64, .f32⟩
  | 38 => ⟨S1100000x1, .f32⟩
  | 39 => ⟨S1100000x64, .f32⟩
  | 40 => ⟨S1100000x64, .f32⟩
  | 41 => ⟨S_, .f32⟩
  | 42 => ⟨S100000x64, .f32⟩
  | 43 => ⟨S1100000x1, .i32⟩
  | 44 => ⟨S100000x64, .f32⟩
  | 45 => ⟨S1x64, .f32⟩
  | 46 => ⟨S100000x64, .f32⟩
  | 47 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call1_cst : Ref sig .tc := ⟨.hbm, 101, rfl⟩
abbrev main_call1_v0 : Ref sig .tc := ⟨.hbm, 102, rfl⟩
abbrev main_v71 : Ref sig .tc := ⟨.hbm, 103, rfl⟩
abbrev main_v72 : Ref sig .tc := ⟨.hbm, 104, rfl⟩
abbrev main_c_14 : Ref sig .tc := ⟨.hbm, 105, rfl⟩
abbrev main_v73 : Ref sig .tc := ⟨.hbm, 106, rfl⟩
abbrev main_v74 : Ref sig .tc := ⟨.hbm, 107, rfl⟩
abbrev main_c_15 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_19 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_21 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call2_cst : Ref sig .tc := ⟨.hbm, 153, rfl⟩
abbrev main_call2_v0 : Ref sig .tc := ⟨.hbm, 154, rfl⟩
abbrev main_v113 : Ref sig .tc := ⟨.hbm, 155, rfl⟩
abbrev main_v114 : Ref sig .tc := ⟨.hbm, 156, rfl⟩
abbrev main_c_22 : Ref sig .tc := ⟨.hbm, 157, rfl⟩
abbrev main_v115 : Ref sig .tc := ⟨.hbm, 158, rfl⟩
abbrev main_v116 : Ref sig .tc := ⟨.hbm, 159, rfl⟩
abbrev main_c_23 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_24 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x128_S100000x128_1_0_0_1_n_n_wf : DotDims.WF S100000x128 S128x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.KernelRun.lean ====
/-
  The idealized kernel's run with its result kept.

  @main is sixteen segments: stretches of host operations and eight kernel regions. The buffer contents at each
  segment boundary are a fold from the launch memory (a stretch applies its operations; a region leaves its arrays
  at what its write-backs leave and every other buffer as entered). Every weakly fair execution terminates without
  a fault in a state whose unscoped buffers hold the last boundary's contents; read at the result buffer and at
  the twelve argument buffers this gives the run below: the result is the last boundary's contents there, and
  every argument is as launched.
-/
import proofs.«136163_j70188355551853_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the argument arrays as launched. -/
theorem run_result : θ_run defs (onTc (τ := τ) (main (F := F))) ⟨m, fun _ => 0, ρ⟩ (fun r => ∀ c : Dev nD,
      r.2.mem ((c.tc : Thread nD τ).loc main_v83) = W16 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v83 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.RunValue

end
-- ==== Proof.RowSpecs.lean ====
/-
  What the three dense stages of one graph-convolution layer compute, entry by entry, on the extended reals.

  A layer multiplies the node features by a weight matrix (`matProd`), gathers and sums the products along the
  edges (shared by both programs, never opened here), adds a bias row to every node's row (`addRow`), and — between
  layers — normalises each node's row of 128 features by its own mean and variance, scales and shifts it lane by
  lane and clips it at zero (`normRelu`). All three act on one node's row at a time: row `p` of the result depends
  on row `p` of the features only, which is why a kernel may compute them over blocks of rows in any order.

  The row statistics are written exactly in the order both programs evaluate them — the lane sum divided by the
  literal 128, the centred squares summed and divided by 128, the literal epsilon added under the reciprocal square
  root — so no law of the extended reals beyond reading each operation at an entry is needed to meet them.
-/
import Idealize.ShloMosaic.PureOps.Ideal
import Idealize.ShloMosaic.Lib.ValueIdx

open scoped BigOperators

noncomputable section

namespace Cert.GraphConv

open Idealize.ShloMosaic Idealize.ShloMosaic.ValueIdx

/-- The matrix product: entry `(p, q)` is the sum over `j` of `x (p, j) · w (j, q)`. -/
def matProd {a k n : ℕ} (x : FVec Ideal ⟨2, ![a, k]⟩ .f32) (w : FVec Ideal ⟨2, ![k, n]⟩ .f32) :
    FVec Ideal ⟨2, ![a, n]⟩ .f32 :=
  fun i => ∑ j : Fin k, x (ix2 (i 0) j) * w (ix2 j (i 1))

theorem matProd_apply {a k n : ℕ} (x : FVec Ideal ⟨2, ![a, k]⟩ .f32) (w : FVec Ideal ⟨2, ![k, n]⟩ .f32)
    (p : Fin a) (q : Fin n) : matProd x w (ix2 p q) = ∑ j : Fin k, x (ix2 p j) * w (ix2 j q) := rfl

/-- A bias row added to every row: entry `(p, q)` is `h (p, q) + b q`. -/
def addRow {a n : ℕ} (h : FVec Ideal ⟨2, ![a, n]⟩ .f32) (b : FVec Ideal ⟨1, ![n]⟩ .f32) :
    FVec Ideal ⟨2, ![a, n]⟩ .f32 :=
  fun i => h i + b (ix1 (i 1))

theorem addRow_apply {a n : ℕ} (h : FVec Ideal ⟨2, ![a, n]⟩ .f32) (b : FVec Ideal ⟨1, ![n]⟩ .f32)
    (p : Fin a) (q : Fin n) : addRow h b (ix2 p q) = h (ix2 p q) + b (ix1 q) := rfl

/-- A row kept as a `[1, n]` array, read as the vector of its lanes. -/
def rowVec {n : ℕ} (r : FVec Ideal ⟨2, ![1, n]⟩ .f32) : FVec Ideal ⟨1, ![n]⟩ .f32 := fun i => r (ix2 (0 : Fin 1) (i 0))

theorem rowVec_apply {n : ℕ} (r : FVec Ideal ⟨2, ![1, n]⟩ .f32) (q : Fin n) : rowVec r (ix1 q) = r (ix2 (0 : Fin 1) q) := rfl

/-- The mean of row `p` over its 128 lanes: the lane sum divided by the literal `128.0`. -/
def rowMean {a : ℕ} (h : FVec Ideal ⟨2, ![a, 128]⟩ .f32) (p : Fin a) : EReal :=
  Ideal.div (∑ k : Fin 128, h (ix2 p k)) (Ideal.ofBits .f32 0x43000000#32)

/-- The variance of row `p`: the centred squares, summed over the lanes and divided by `128.0`. -/
def rowVar {a : ℕ} (h : FVec Ideal ⟨2, ![a, 128]⟩ .f32) (p : Fin a) : EReal :=
  Ideal.div (∑ k : Fin 128, (h (ix2 p k) - rowMean h p) * (h (ix2 p k) - rowMean h p))
    (Ideal.ofBits .f32 0x43000000#32)

/-- One entry of the normalised, scaled, shifted and clipped row, from the row's statistics. -/
def normEntry (v mu var gq bq : EReal) : EReal :=
  max (((v - mu) * Ideal.rsqrt (var + Ideal.ofBits .f32 0x3727C5AC#32)) * gq + bq) (Ideal.ofBits .f32 0x00000000#32)

/-- Row-wise normalisation, lane-wise scale `g` and shift `β`, then the clip at zero. -/
def normRelu {a : ℕ} (h : FVec Ideal ⟨2, ![a, 128]⟩ .f32) (g β : FVec Ideal ⟨1, ![128]⟩ .f32) :
    FVec Ideal ⟨2, ![a, 128]⟩ .f32 :=
  fun i => normEntry (h i) (rowMean h (i 0)) (rowVar h (i 0)) (g (ix1 (i 1))) (β (ix1 (i 1)))

theorem normRelu_apply {a : ℕ} (h : FVec Ideal ⟨2, ![a, 128]⟩ .f32) (g β : FVec Ideal ⟨1, ![128]⟩ .f32)
    (p : Fin a) (q : Fin 128) :
    normRelu h g β (ix2 p q) = normEntry (h (ix2 p q)) (rowMean h p) (rowVar h p) (g (ix1 q)) (β (ix1 q)) := rfl

/-- The row statistics see only the row: two arrays that agree on row `p'` of one and row `p` of the other have
    the same mean there. -/
theorem rowMean_congr {a a' : ℕ} (h : FVec Ideal ⟨2, ![a, 128]⟩ .f32) (h' : FVec Ideal ⟨2, ![a', 128]⟩ .f32)
    (p : Fin a) (p' : Fin a') (e : ∀ k : Fin 128, h' (ix2 p' k) = h (ix2 p k)) : rowMean h' p' = rowMean h p := by
  unfold rowMean; rw [Finset.sum_congr rfl fun k _ => e k]

theorem rowVar_congr {a a' : ℕ} (h : FVec Ideal ⟨2, ![a, 128]⟩ .f32) (h' : FVec Ideal ⟨2, ![a', 128]⟩ .f32)
    (p : Fin a) (p' : Fin a') (e : ∀ k : Fin 128, h' (ix2 p' k) = h (ix2 p k)) : rowVar h' p' = rowVar h p := by
  unfold rowVar; rw [rowMean_congr h h' p p' e, Finset.sum_congr rfl fun k _ => by rw [e k]]

end Cert.GraphConv

end
-- ==== Proof.RefStages.lean ====
/-
  The reference's dense stages are the row-wise specifications.

  The reference computes each layer with whole-array host operations. Read entry by entry on the extended reals:
  its three matrix products are `matProd` of the stage before and the weight matrix; its three bias additions (a bias
  vector broadcast to one row and then over all rows) are `addRow`; and each of its two normalisation stretches —
  the lane sum, the division by 128, the centred squares, their lane sum over 128 again, the epsilon, the reciprocal
  square root, the scale and shift broadcast from their vectors, the maximum with a zero array — is `normRelu` of
  the stage before and the scale and shift vectors. The graph aggregation between them is never opened.
-/
import proofs.«136163_j70188355551853_1_alg».proof.Proof.RefRead
import proofs.«136163_j70188355551853_1_alg».proof.Proof.RowSpecs

open scoped BigOperators

noncomputable section

namespace Cert.GraphConv.Ref

open Idealize.ShloMosaic Idealize.ShloMosaic.ValueIdx Cert.ReferenceIdeal Cert.ReferenceIdeal.Read Cert.GraphConv

variable (x0 : (⟨S100000x128, .f32⟩ : BufTy).Contents (Elt Ideal)) (x1 : (⟨S2x1000000, .i32⟩ : BufTy).Contents (Elt Ideal))
  (x2 x4 : (⟨S128x128, .f32⟩ : BufTy).Contents (Elt Ideal)) (x6 : (⟨S128x64, .f32⟩ : BufTy).Contents (Elt Ideal))
  (x7 : (⟨S64, .f32⟩ : BufTy).Contents (Elt Ideal)) (x3 x5 x8 x9 x10 x11 : (⟨S128, .f32⟩ : BufTy).Contents (Elt Ideal))

/-- The first layer's product. -/
theorem prod1 : val_main_v30 (F := Ideal) x0 x2 = matProd x0 x2 := by
  funext i
  obtain ⟨p, q, rfl⟩ : ∃ (p : Fin 100000) (q : Fin 128), i = ix2 p q := ⟨i 0, i 1, eq_ix2 i⟩
  rw [val_main_v30_apply, matProd_apply]
  refine Finset.sum_congr rfl fun k _ => ?_
  -- the contraction reads row `p` of the left operand at lane `k` and row `k` of the right operand at lane `q`
  have el : lidx_main_v30 (ix2 p q) k = ix2 p k :=
    funext fun a => Fin.ext (by match a with | ⟨0, _⟩ => rfl | ⟨1, _⟩ => rfl)
  have er : ridx_main_v30 (ix2 p q) k = ix2 k q :=
    funext fun a => Fin.ext (by match a with | ⟨0, _⟩ => rfl | ⟨1, _⟩ => rfl)
  rw [el, er]

/-- The first layer's bias addition. -/
theorem bias1 : val_main_v46 (F := Ideal) x0 x1 x2 x3 = addRow (val_main_v43 (F := Ideal) x0 x1 x2) x3 := by
  funext i
  obtain ⟨p, q, rfl⟩ : ∃ (p : Fin 100000) (q : Fin 128), i = ix2 p q := ⟨i 0, i 1, eq_ix2 i⟩
  rw [val_main_v46_apply, val_main_v45_apply, val_main_v44_apply, addRow_apply]
  -- the bias, broadcast to one row and then over all rows, is read at its lane `q`
  have eb : idx_main_v44 (idx_main_v45 (ix2 p q)) = ix1 q :=
    funext fun a => Fin.ext (by match a with | ⟨0, _⟩ => rfl)
  rw [eb]
  rfl

/-- The first layer's mean column: the lane sum, started from the zero word, divided by the literal `128.0`. -/
theorem mean1 (p : Fin 100000) (z : Fin 1) :
    val_main_v50 (F := Ideal) x0 x1 x2 x3 (ix2 p z) = rowMean (val_main_v46 (F := Ideal) x0 x1 x2 x3) p := by
  rw [val_main_v50_apply, val_main_v48_apply, val_main_v47_apply, val_main_v49_apply, val_main_cst_10_apply,
    val_main_cst_9_apply]
  generalize val_main_v46 (F := Ideal) x0 x1 x2 x3 = h
  rw [Ideal.ofBits_def, Ideal.ofBits_zero_f32, zero_add, Ideal.hostDivf_def, Ideal.ofBits_def]
  have e : ∀ k : Fin 128, idx_main_v47 (idx_main_v48 (ix2 p z)) k = ix2 p k := fun k =>
    funext fun a => Fin.ext (by match a with | ⟨0, _⟩ => rfl | ⟨1, _⟩ => rfl)
  simp only [e]
  rfl

/-- The first layer's centred entry, as the variance's summand sees it. -/
theorem cent1 (p : Fin 100000) (k : Fin 128) :
    val_main_v52 (F := Ideal) x0 x1 x2 x3 (ix2 p k)
      = val_main_v46 (F := Ideal) x0 x1 x2 x3 (ix2 p k) - rowMean (val_main_v46 (F := Ideal) x0 x1 x2 x3) p := by
  rw [val_main_v52_apply, val_main_v51_apply, Ideal.subf_def]
  have e : idx_main_v51 (ix2 p k) = ix2 p (0 : Fin 1) :=
    funext fun a => Fin.ext (by match a with | ⟨0, _⟩ => rfl | ⟨1, _⟩ => rfl)
  rw [e, mean1]

/-- The first layer's variance column: the centred squares summed over the lanes and divided by `128.0`. -/
theorem var1 (p : Fin 100000) (z : Fin 1) :
    val_main_v57 (F := Ideal) x0 x1 x2 x3 (ix2 p z) = rowVar (val_main_v46 (F := Ideal) x0 x1 x2 x3) p := by
  rw [val_main_v57_apply, val_main_v55_apply, val_main_v54_apply, val_main_v56_apply, val_main_cst_12_apply,
    val_main_cst_11_apply]
  rw [Ideal.ofBits_def, Ideal.ofBits_zero_f32, zero_add, Ideal.hostDivf_def, Ideal.ofBits_def]
  have e : ∀ k : Fin 128, idx_main_v54 (idx_main_v55 (ix2 p z)) k = ix2 p k := fun k =>
    funext fun a => Fin.ext (by match a with | ⟨0, _⟩ => rfl | ⟨1, _⟩ => rfl)
  unfold rowVar
  refine congrArg (fun s => Ideal.div s (Ideal.ofBits .f32 0x43000000#32)) ?_
  refine Finset.sum_congr rfl fun k _ => ?_
  rw [e k, val_main_v53_apply, Ideal.mulf_def, cent1]

/-- The first normalisation, scale, shift and clip. -/
theorem norm1 : val_main_v71 (F := Ideal) x0 x1 x2 x3 x8 x9 = normRelu (val_main_v46 (F := Ideal) x0 x1 x2 x3) x8 x9 := by
  funext i
  obtain ⟨p, q, rfl⟩ : ∃ (p : Fin 100000) (q : Fin 128), i = ix2 p q := ⟨i 0, i 1, eq_ix2 i⟩
  rw [val_main_v71_apply, val_main_v70_apply, val_main_v67_apply, val_main_v64_apply, val_main_v59_apply,
    val_main_v58_apply, val_main_v63_apply, val_main_v62_apply, val_main_v61_apply, val_main_v60_apply,
    val_main_cst_13_apply, val_main_v66_apply, val_main_v65_apply, val_main_v69_apply, val_main_v68_apply,
    val_main_call1_v0_apply, val_main_call1_cst_apply, normRelu_apply]
  -- the column broadcasts read row `p`'s statistic, the vector broadcasts read lane `q`
  have e58 : idx_main_v58 (ix2 p q) = ix2 p (0 : Fin 1) :=
    funext fun a => Fin.ext (by match a with | ⟨0, _⟩ => rfl | ⟨1, _⟩ => rfl)
  have e63 : idx_main_v63 (ix2 p q) = ix2 p (0 : Fin 1) :=
    funext fun a => Fin.ext (by match a with | ⟨0, _⟩ => rfl | ⟨1, _⟩ => rfl)
  have e65 : idx_main_v65 (idx_main_v66 (ix2 p q)) = ix1 q :=
    funext fun a => Fin.ext (by match a with | ⟨0, _⟩ => rfl)
  have e68 : idx_main_v68 (idx_main_v69 (ix2 p q)) = ix1 q :=
    funext fun a => Fin.ext (by match a with | ⟨0, _⟩ => rfl)
  rw [e58, e63, e65, e68, mean1, var1]
  rfl

/-- The second layer's product. -/
theorem prod2 : val_main_v72 (F := Ideal) x0 x1 x2 x3 x4 x8 x9 = matProd (val_main_v71 (F := Ideal) x0 x1 x2 x3 x8 x9) x4 := by
  funext i
  obtain ⟨p, q, rfl⟩ : ∃ (p : Fin 100000) (q : Fin 128), i = ix2 p q := ⟨i 0, i 1, eq_ix2 i⟩
  rw [val_main_v72_apply, matProd_apply]
  refine Finset.sum_congr rfl fun k _ => ?_
  have el : lidx_main_v72 (ix2 p q) k = ix2 p k :=
    funext fun a => Fin.ext (by match a with | ⟨0, _⟩ => rfl | ⟨1, _⟩ => rfl)
  have er : ridx_main_v72 (ix2 p q) k = ix2 k q :=
    funext fun a => Fin.ext (by match a with | ⟨0, _⟩ => rfl | ⟨1, _⟩ => rfl)
  rw [el, er]

/-- The second layer's bias addition. -/
theorem bias2 : val_main_v88 (F := Ideal) x0 x1 x2 x3 x4 x5 x8 x9 = addRow (val_main_v85 (F := Ideal) x0 x1 x2 x3 x4 x8 x9) x5 := by
  funext i
  obtain ⟨p, q, rfl⟩ : ∃ (p : Fin 100000) (q : Fin 128), i = ix2 p q := ⟨i 0, i 1, eq_ix2 i⟩
  rw [val_main_v88_apply, val_main_v87_apply, val_main_v86_apply, addRow_apply]
  have eb : idx_main_v86 (idx_main_v87 (ix2 p q)) = ix1 q :=
    funext fun a => Fin.ext (by match a with | ⟨0, _⟩ => rfl)
  rw [eb]
  rfl

/-- The second layer's mean column: the lane sum, started from the zero word, divided by the literal `128.0`. -/
theorem mean2 (p : Fin 100000) (z : Fin 1) :
    val_main_v92 (F := Ideal) x0 x1 x2 x3 x4 x5 x8 x9 (ix2 p z) = rowMean (val_main_v88 (F := Ideal) x0 x1 x2 x3 x4 x5 x8 x9) p := by
  rw [val_main_v92_apply, val_main_v90_apply, val_main_v89_apply, val_main_v91_apply, val_main_cst_18_apply,
    val_main_cst_17_apply]
  generalize val_main_v88 (F := Ideal) x0 x1 x2 x3 x4 x5 x8 x9 = h
  rw [Ideal.ofBits_def, Ideal.ofBits_zero_f32, zero_add, Ideal.hostDivf_def, Ideal.ofBits_def]
  have e : ∀ k : Fin 128, idx_main_v89 (idx_main_v90 (ix2 p z)) k = ix2 p k := fun k =>
    funext fun a => Fin.ext (by match a with | ⟨0, _⟩ => rfl | ⟨1, _⟩ => rfl)
  simp only [e]
  rfl

/-- The second layer's centred entry, as the variance's summand sees it. -/
theorem cent2 (p : Fin 100000) (k : Fin 128) :
    val_main_v94 (F := Ideal) x0 x1 x2 x3 x4 x5 x8 x9 (ix2 p k)
      = val_main_v88 (F := Ideal) x0 x1 x2 x3 x4 x5 x8 x9 (ix2 p k) - rowMean (val_main_v88 (F := Ideal) x0 x1 x2 x3 x4 x5 x8 x9) p := by
  rw [val_main_v94_apply, val_main_v93_apply, Ideal.subf_def]
  have e : idx_main_v93 (ix2 p k) = ix2 p (0 : Fin 1) :=
    funext fun a => Fin.ext (by match a with | ⟨0, _⟩ => rfl | ⟨1, _⟩ => rfl)
  rw [e, mean2]

/-- The second layer's variance column: the centred squares summed over the lanes and divided by `128.0`. -/
theorem var2 (p : Fin 100000) (z : Fin 1) :
    val_main_v99 (F := Ideal) x0 x1 x2 x3 x4 x5 x8 x9 (ix2 p z) = rowVar (val_main_v88 (F := Ideal) x0 x1 x2 x3 x4 x5 x8 x9) p := by
  rw [val_main_v99_apply, val_main_v97_apply, val_main_v96_apply, val_main_v98_apply, val_main_cst_20_apply,
    val_main_cst_19_apply]
  rw [Ideal.ofBits_def, Ideal.ofBits_zero_f32, zero_add, Ideal.hostDivf_def, Ideal.ofBits_def]
  have e : ∀ k : Fin 128, idx_main_v96 (idx_main_v97 (ix2 p z)) k = ix2 p k := fun k =>
    funext fun a => Fin.ext (by match a with | ⟨0, _⟩ => rfl | ⟨1, _⟩ => rfl)
  unfold rowVar
  refine congrArg (fun s => Ideal.div s (Ideal.ofBits .f32 0x43000000#32)) ?_
  refine Finset.sum_congr rfl fun k _ => ?_
  rw [e k, val_main_v95_apply, Ideal.mulf_def, cent2]

/-- The second normalisation, scale, shift and clip. -/
theorem norm2 : val_main_v113 (F := Ideal) x0 x1 x2 x3 x4 x5 x8 x9 x10 x11
    = normRelu (val_main_v88 (F := Ideal) x0 x1 x2 x3 x4 x5 x8 x9) x10 x11 := by
  funext i
  obtain ⟨p, q, rfl⟩ : ∃ (p : Fin 100000) (q : Fin 128), i = ix2 p q := ⟨i 0, i 1, eq_ix2 i⟩
  rw [val_main_v113_apply, val_main_v112_apply, val_main_v109_apply, val_main_v106_apply, val_main_v101_apply,
    val_main_v100_apply, val_main_v105_apply, val_main_v104_apply, val_main_v103_apply, val_main_v102_apply,
    val_main_cst_21_apply, val_main_v108_apply, val_main_v107_apply, val_main_v111_apply, val_main_v110_apply,
    val_main_call2_v0_apply, val_main_call2_cst_apply, normRelu_apply]
  have e100 : idx_main_v100 (ix2 p q) = ix2 p (0 : Fin 1) :=
    funext fun a => Fin.ext (by match a with | ⟨0, _⟩ => rfl | ⟨1, _⟩ => rfl)
  have e105 : idx_main_v105 (ix2 p q) = ix2 p (0 : Fin 1) :=
    funext fun a => Fin.ext (by match a with | ⟨0, _⟩ => rfl | ⟨1, _⟩ => rfl)
  have e107 : idx_main_v107 (idx_main_v108 (ix2 p q)) = ix1 q :=
    funext fun a => Fin.ext (by match a with | ⟨0, _⟩ => rfl)
  have e110 : idx_main_v110 (idx_main_v111 (ix2 p q)) = ix1 q :=
    funext fun a => Fin.ext (by match a with | ⟨0, _⟩ => rfl)
  rw [e100, e105, e107, e110, mean2, var2]
  rfl

/-- The third layer's product (64 output lanes). -/
theorem prod3 : val_main_v114 (F := Ideal) x0 x1 x2 x3 x4 x5 x6 x8 x9 x10 x11
    = matProd (val_main_v113 (F := Ideal) x0 x1 x2 x3 x4 x5 x8 x9 x10 x11) x6 := by
  funext i
  obtain ⟨p, q, rfl⟩ : ∃ (p : Fin 100000) (q : Fin 64), i = ix2 p q := ⟨i 0, i 1, eq_ix2 i⟩
  rw [val_main_v114_apply, matProd_apply]
  refine Finset.sum_congr rfl fun k _ => ?_
  have el : lidx_main_v114 (ix2 p q) k = ix2 p k :=
    funext fun a => Fin.ext (by match a with | ⟨0, _⟩ => rfl | ⟨1, _⟩ => rfl)
  have er : ridx_main_v114 (ix2 p q) k = ix2 k q :=
    funext fun a => Fin.ext (by match a with | ⟨0, _⟩ => rfl | ⟨1, _⟩ => rfl)
  rw [el, er]

/-- The third layer's bias addition: the result. -/
theorem bias3 : val_main_v130 (F := Ideal) x0 x1 x2 x3 x4 x5 x6 x7 x8 x9 x10 x11
    = addRow (val_main_v127 (F := Ideal) x0 x1 x2 x3 x4 x5 x6 x8 x9 x10 x11) x7 := by
  funext i
  obtain ⟨p, q, rfl⟩ : ∃ (p : Fin 100000) (q : Fin 64), i = ix2 p q := ⟨i 0, i 1, eq_ix2 i⟩
  rw [val_main_v130_apply, val_main_v129_apply, val_main_v128_apply, addRow_apply]
  have eb : idx_main_v128 (idx_main_v129 (ix2 p q)) = ix1 q :=
    funext fun a => Fin.ext (by match a with | ⟨0, _⟩ => rfl)
  rw [eb]
  rfl

end Cert.GraphConv.Ref

end
-- ==== Proof.LibRowLayout.lean ====
/-
  Layout operations read at an index given by coordinates, for the column and row forms a row-wise
  node update uses: a column kept as `[a, 1]`, a row kept as `[1, b]`, their broadcasts over a
  `[a, b]` block, one column or one row cut out of a matrix, a lane sum of a `[a, b]` block read at a
  row, and the elementwise transcendental operations of the extended reals read at an index.
-/
import Idealize.ShloMosaic.Lib.ValueLayout
import Idealize.ShloMosaic.PureOps.Ideal.Laws

open scoped BigOperators

namespace Cert.NodeRow.Ker

open Idealize.ShloMosaic Idealize.ShloMosaic.ValueIdx

section Layout
variable {α : Type}

/-- An `[a, 1]` array cast to `[a]` reads, at `p`, the operand at `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- An `[a]` array cast to `[a, 1]` reads, at `(p, z)`, the operand at `p`, whatever the unit coordinate `z`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    omega)

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column taken through the casts `[a, 1] → [a] → [a, 1]` and broadcast over `b` lanes reads, at `(p, c)`,
    the column at `p`. -/
theorem colBroadcast_apply {a b : ℕ} (v : (⟨2, ![a, 1]⟩ : Shape).Idx → α)
    (h1 : (⟨2, ![a, 1]⟩ : Shape).ShapeCasts ⟨1, ![a]⟩) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ (shapeCast ⟨1, ![a]⟩ v h1) h2) h3 (ix2 p c)
      = v (ix2 p (0 : Fin 1)) := by
  rw [broadcastTo_a1_ab_apply, shapeCast_a_a1_apply, shapeCast_a1_a_apply]

/-- A row taken through the casts `[1, b] → [b] → [1, b]` and broadcast over `a` rows reads, at `(p, c)`,
    the row at `c`. -/
theorem rowBroadcast_apply {a b : ℕ} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h1) h2) h3 (ix2 p c)
      = v (ix2 (0 : Fin 1) c) := by
  rw [broadcastTo_1b_ab_apply, shapeCast_a_1a_apply, shapeCast_1a_a_apply]

/-- Column `o` of an `[a, n]` matrix, cut out as `[a, 1]`, reads at `(p, z)` the matrix at `(p, k)` with `k = o`. -/
theorem col_apply {a n : ℕ} (o : ℕ) (X : (⟨2, ![a, n]⟩ : Shape).Idx → α)
    (h : (⟨2, ![a, n]⟩ : Shape).Slices ![0, o] ⟨2, ![a, 1]⟩) (p : Fin a) (z : Fin 1) (k : Fin n) (hk : k.val = o) :
    extractStridedSlice ⟨2, ![a, 1]⟩ ![0, o] X h (ix2 p z) = X (ix2 p k) :=
  slice2_axis1_apply o X h p z k (by have hz : z.val = 0 := by omega
                                     omega)

/-- Row `o` of an `[n, b]` matrix, cut out as `[1, b]`, reads at `(z, c)` the matrix at `(k, c)` with `k = o`. -/
theorem row_apply {n b : ℕ} (o : ℕ) (X : (⟨2, ![n, b]⟩ : Shape).Idx → α)
    (h : (⟨2, ![n, b]⟩ : Shape).Slices ![o, 0] ⟨2, ![1, b]⟩) (z : Fin 1) (c : Fin b) (k : Fin n) (hk : k.val = o) :
    extractStridedSlice ⟨2, ![1, b]⟩ ![o, 0] X h (ix2 z c) = X (ix2 k c) :=
  slice2_axis0_apply o X h z c k (by have hz : z.val = 0 := by omega
                                     omega)

end Layout

/-! ## The lane sum of a block at a row, and the elementwise operations, at the extended reals -/

/-- The sum over the lanes of an `[a, b]` block, read at row `p`, is the sum over `k` of the block at `(p, k)`. -/
theorem rowSum_apply {a b : ℕ} (X : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ X acc h hφ hacc (ix1 p) = ∑ k : Fin b, X (ix2 p k) := by
  refine (Ideal.multiReduction_add_single X acc h hφ hacc (ix1 p)).trans ?_
  show ∑ k : Fin b, X (h.lift (ix1 p) k) = ∑ k : Fin b, X (ix2 p k)
  refine Finset.sum_congr rfl fun k _ => congrArg X ?_
  funext ax
  match ax with
  | ⟨0, _⟩ => exact Fin.ext rfl
  | ⟨1, _⟩ => exact Fin.ext rfl

/-- The lane sum kept as a column `[a, 1]`. -/
theorem rowSumCol_apply {a b : ℕ} (X : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (h2 : (⟨1, ![a]⟩ : Shape).ShapeCasts ⟨2, ![a, 1]⟩) (p : Fin a) (z : Fin 1) :
    shapeCast ⟨2, ![a, 1]⟩ (multiReduction .add [1] ⟨1, ![a]⟩ X acc h hφ hacc) h2 (ix2 p z) = ∑ k : Fin b, X (ix2 p k) := by
  rw [shapeCast_a_a1_apply, rowSum_apply]

section Elementwise
variable {s : Shape} {φ : FTy}

theorem logistic_apply (x : FVec Ideal s φ) (i : s.Idx) : logistic x i = Ideal.logistic (x i) := rfl
theorem rsqrt_apply (x : FVec Ideal s φ) (i : s.Idx) : rsqrt x i = Ideal.rsqrt (x i) := rfl
theorem log_apply (x : FVec Ideal s φ) (i : s.Idx) : log x i = Ideal.log (x i) := rfl
theorem absf_apply (x : FVec Ideal s φ) (i : s.Idx) : absf x i = max (x i) (-(x i)) := rfl
/-- A broadcast float literal reads the extended real its word encodes. -/
theorem broadcast_ofBits_apply (b : BitVec φ.bits) (i : s.Idx) :
    broadcast s (Scalar.ofBits (F := Ideal) φ b) i = Ideal.ofBits φ b := rfl

end Elementwise

end Cert.NodeRow.Ker
-- ==== Proof.BodyValues.lean ====
/-
  The kernels' bodies read at one entry of a block of rows, on the extended reals.

  Each body loads a block of 4000 node rows (and a weight matrix, or a bias / scale / shift row kept as one row of a
  two-axis array), computes, and stores one block. Read at row `p`, lane `q` of the block:
  the matrix-product body gives the sum over `j` of `x (p, j) · w (j, q)` (the casts to the narrower float format on
  the way in are the identity on the extended reals, and the accumulator starts at zero);
  the bias body gives `h (p, q) + b (0, q)`;
  the normalisation body gives `normEntry` of the entry, of the block's own row mean and row variance, and of the
  scale and shift rows at lane `q`.
-/
import proofs.«136163_j70188355551853_1_alg».proof.Proof.Gen.KernelIdeal.Skeleton
import proofs.«136163_j70188355551853_1_alg».proof.Proof.RowSpecs
import proofs.«136163_j70188355551853_1_alg».proof.Proof.LibRowLayout
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.GraphConv.Body

open Idealize.ShloMosaic Idealize.ShloMosaic.ValueIdx Cert.KernelIdeal Cert.KernelIdeal.Gen Cert.GraphConv

/-! ## The matrix product with one contracted axis, read at an entry -/

/-- A `[4000, 128]` by `[128, 128]` product into a zero accumulator: entry `(p, q)` is the sum over the one contracted
    coordinate `j` of `l (p, j) · r (j, q)`. First the operands' indices coordinate by coordinate: the left operand is
    read at the result's row and the contracted coordinate, the right one at the contracted coordinate and the result's
    lane. Then the sum over the contraction's one-axis index set is re-indexed through that axis' coordinate. -/
theorem dot128_lhs0 (i : S4000x128.Idx) (c : dot_S4000x128_S128x128_S4000x128_1_0_0_1_n_n.contr.Idx) : (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dot128_lhs1 (i : S4000x128.Idx) (c : dot_S4000x128_S128x128_S4000x128_1_0_0_1_n_n.contr.Idx) : (dot_S4000x128_S128x128_S4000x128_1_0_0_1_n_n.lhsIdx i c 1).val = (c ⟨0, by decide⟩).val :=
  dot_S4000x128_S128x128_S4000x128_1_0_0_1_n_n.lhsIdx_val_of_single rfl i c
theorem dot128_rhs0 (i : S4000x128.Idx) (c : dot_S4000x128_S128x128_S4000x128_1_0_0_1_n_n.contr.Idx) : (dot_S4000x128_S128x128_S4000x128_1_0_0_1_n_n.rhsIdx i c 0).val = (c ⟨0, by decide⟩).val :=
  dot_S4000x128_S128x128_S4000x128_1_0_0_1_n_n.rhsIdx_val_of_single rfl i c
theorem dot128_rhs1 (i : S4000x128.Idx) (c : dot_S4000x128_S128x128_S4000x128_1_0_0_1_n_n.contr.Idx) : (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

theorem dot128_entry {φ₁ φ₂ : FTy} (l : FVec Ideal S4000x128 φ₁) (r : FVec Ideal S128x128 φ₂) (p : Fin 4000) (q : Fin 128) :
    FloatOps.matmul dot_S4000x128_S128x128_S4000x128_1_0_0_1_n_n none l r (constant S4000x128 .f32 0x00000000#32) (ix2 p q)
      = ∑ j : Fin 128, l (ix2 p j) * r (ix2 j q) := by
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k :=
    funext fun a => Fin.ext (by
      match a with
      | ⟨0, _⟩ => exact dot128_lhs0 _ _
      | ⟨1, _⟩ => exact (dot128_lhs1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q :=
    funext fun a => Fin.ext (by
      match a with
      | ⟨0, _⟩ => exact (dot128_rhs0 _ _).trans hk
      | ⟨1, _⟩ => exact dot128_rhs1 _ _)
  rw [el, er]

/-- The same for the `[4000, 128]` by `[128, 64]` product. -/
theorem dot64_lhs0 (i : S4000x64.Idx) (c : dot_S4000x128_S128x64_S4000x64_1_0_0_1_n_n.contr.Idx) : (dot_S4000x128_S128x64_S4000x64_1_0_0_1_n_n.lhsIdx i c 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl
theorem dot64_lhs1 (i : S4000x64.Idx) (c : dot_S4000x128_S128x64_S4000x64_1_0_0_1_n_n.contr.Idx) : (dot_S4000x128_S128x64_S4000x64_1_0_0_1_n_n.lhsIdx i c 1).val = (c ⟨0, by decide⟩).val :=
  dot_S4000x128_S128x64_S4000x64_1_0_0_1_n_n.lhsIdx_val_of_single rfl i c
theorem dot64_rhs0 (i : S4000x64.Idx) (c : dot_S4000x128_S128x64_S4000x64_1_0_0_1_n_n.contr.Idx) : (dot_S4000x128_S128x64_S4000x64_1_0_0_1_n_n.rhsIdx i c 0).val = (c ⟨0, by decide⟩).val :=
  dot_S4000x128_S128x64_S4000x64_1_0_0_1_n_n.rhsIdx_val_of_single rfl i c
theorem dot64_rhs1 (i : S4000x64.Idx) (c : dot_S4000x128_S128x64_S4000x64_1_0_0_1_n_n.contr.Idx) : (dot_S4000x128_S128x64_S4000x64_1_0_0_1_n_n.rhsIdx i c 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

theorem dot64_entry {φ₁ φ₂ : FTy} (l : FVec Ideal S4000x128 φ₁) (r : FVec Ideal S128x64 φ₂) (p : Fin 4000) (q : Fin 64) :
    FloatOps.matmul dot_S4000x128_S128x64_S4000x64_1_0_0_1_n_n none l r (constant S4000x64 .f32 0x00000000#32) (ix2 p q)
      = ∑ j : Fin 128, l (ix2 p j) * r (ix2 j q) := by
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p q) ((ValueIdx.contrEquiv1 dot_S4000x128_S128x64_S4000x64_1_0_0_1_n_n 128 rfl rfl).symm k) = ix2 p k :=
    funext fun a => Fin.ext (by
      match a with
      | ⟨0, _⟩ => exact dot64_lhs0 _ _
      | ⟨1, _⟩ => exact (dot64_lhs1 _ _).trans hk)
  have er : dot_S4000x128_S128x64_S4000x64_1_0_0_1_n_n.rhsIdx (ix2 p q) ((ValueIdx.contrEquiv1 dot_S4000x128_S128x64_S4000x64_1_0_0_1_n_n 128 rfl rfl).symm k) = ix2 k q :=
    funext fun a => Fin.ext (by
      match a with
      | ⟨0, _⟩ => exact (dot64_rhs0 _ _).trans hk
      | ⟨1, _⟩ => exact dot64_rhs1 _ _)
  rw [el, er]

/-- The first layer's matrix-product body at an entry. -/
theorem prod0_entry (x0 : Vec Ideal S4000x128 .f32) (x1 : Vec Ideal S128x128 .f32) (p : Fin 4000) (q : Fin 128) :
    k0_pay1 (F := Ideal) x0 x1 (ix2 p q) = ∑ j : Fin 128, x0 (ix2 p j) * x1 (ix2 j q) := by
  unfold k0_pay1
  -- the two narrowing casts are the identity on the extended reals
  exact dot128_entry (truncf .bf16 x0 bitsLt_bf16_f32) (truncf .bf16 x1 bitsLt_bf16_f32) p q

/-- The second layer's matrix-product body at an entry. -/
theorem prod3_entry (x0 : Vec Ideal S4000x128 .f32) (x1 : Vec Ideal S128x128 .f32) (p : Fin 4000) (q : Fin 128) :
    k3_pay1 (F := Ideal) x0 x1 (ix2 p q) = ∑ j : Fin 128, x0 (ix2 p j) * x1 (ix2 j q) := by
  unfold k3_pay1
  -- a cast to the same shape is the identity; then as for the first layer
  rw [shapeCast_self]
  exact dot128_entry (truncf .bf16 x0 bitsLt_bf16_f32) (truncf .bf16 x1 bitsLt_bf16_f32) p q

/-- The third layer's matrix-product body (64 output lanes) at an entry. -/
theorem prod6_entry (x0 : Vec Ideal S4000x128 .f32) (x1 : Vec Ideal S128x64 .f32) (p : Fin 4000) (q : Fin 64) :
    k6_pay1 (F := Ideal) x0 x1 (ix2 p q) = ∑ j : Fin 128, x0 (ix2 p j) * x1 (ix2 j q) := by
  unfold k6_pay1
  rw [shapeCast_self]
  exact dot64_entry (truncf .bf16 x0 bitsLt_bf16_f32) (truncf .bf16 x1 bitsLt_bf16_f32) p q

/-! ## The bias row added to every row of the block -/

/-- The first layer's bias body at an entry. -/
theorem bias1_entry (x0 : Vec Ideal S4000x128 .f32) (x1 : Vec Ideal S1x128 .f32) (p : Fin 4000) (q : Fin 128) :
    k1_pay1 (F := Ideal) x0 x1 (ix2 p q) = x0 (ix2 p q) + x1 (ix2 (0 : Fin 1) q) := by
  unfold k1_pay1
  -- both casts keep the shape; the sum at an entry is the sum of the entries; the row broadcast reads its lane
  rw [shapeCast_self, shapeCast_self]
  exact congrArg (x0 (ix2 p q) + ·) (broadcastTo_1b_ab_apply x1 broadcasts_S1x128_S4000x128 p q)

/-- The second layer's bias body at an entry. -/
theorem bias4_entry (x0 : Vec Ideal S4000x128 .f32) (x1 : Vec Ideal S1x128 .f32) (p : Fin 4000) (q : Fin 128) :
    k4_pay1 (F := Ideal) x0 x1 (ix2 p q) = x0 (ix2 p q) + x1 (ix2 (0 : Fin 1) q) := by
  unfold k4_pay1
  rw [shapeCast_self, shapeCast_self]
  exact congrArg (x0 (ix2 p q) + ·) (broadcastTo_1b_ab_apply x1 broadcasts_S1x128_S4000x128 p q)

/-- The third layer's bias body (64 lanes) at an entry. -/
theorem bias7_entry (x0 : Vec Ideal S4000x64 .f32) (x1 : Vec Ideal S1x64 .f32) (p : Fin 4000) (q : Fin 64) :
    k7_pay1 (F := Ideal) x0 x1 (ix2 p q) = x0 (ix2 p q) + x1 (ix2 (0 : Fin 1) q) := by
  unfold k7_pay1
  rw [shapeCast_self, shapeCast_self]
  exact congrArg (x0 (ix2 p q) + ·) (broadcastTo_1b_ab_apply x1 broadcasts_S1x64_S4000x64 p q)

/-! ## The normalisation body -/

/-- The mean of each row, kept as a column and spread back over the lanes: the lane sum as a `[4000, 1]` column,
    divided by the literal `128.0`, broadcast to `[4000, 128]`, reads at every lane of row `p` the row's mean. -/
theorem meanBlock_apply (X : FVec Ideal S4000x128 .f32) (hφ : FKind.Formats .f32)
    (hacc : (0x00000000#32 : BitVec 32) = FKind.add.neutral .f32 hφ) (p : Fin 4000) (c : Fin 128) :
    broadcastTo S4000x128
        (divf (shapeCast S4000x1 (multiReduction (F := Ideal) .add [1] S4000 X 0x00000000#32 reduces_S4000x128_S4000 hφ hacc)
            shapeCasts_S4000_S4000x1)
          (broadcast S4000x1 (Scalar.ofBits (F := Ideal) .f32 0x43000000#32)))
        broadcasts_S4000x1_S4000x128 (ix2 p c)
      = rowMean X p := by
  rw [Cert.NodeRow.Ker.broadcastTo_a1_ab_apply]
  show Ideal.div (shapeCast S4000x1 _ shapeCasts_S4000_S4000x1 (ix2 p (0 : Fin 1))) (Ideal.ofBits .f32 0x43000000#32) = _
  rw [Cert.NodeRow.Ker.rowSumCol_apply]
  rfl

/-- The reciprocal standard deviation of each row, spread over the lanes: for a block `M` that is the constant `μ` along
    row `p`, the squares of `X - M` summed over the lanes as a column, divided by `128.0`, the literal epsilon added, the
    reciprocal square root taken and the column broadcast to `[4000, 128]`, read at any lane of row `p`. -/
theorem rstdBlock_apply (X M : FVec Ideal S4000x128 .f32) (μ : EReal) (hφ : FKind.Formats .f32)
    (hacc : (0x00000000#32 : BitVec 32) = FKind.add.neutral .f32 hφ) (p : Fin 4000)
    (hM : ∀ k : Fin 128, M (ix2 p k) = μ) (c : Fin 128) :
    broadcastTo S4000x128
        (rsqrt (addf
          (divf (shapeCast S4000x1
              (multiReduction (F := Ideal) .add [1] S4000 (mulf (subf X M) (subf X M)) 0x00000000#32 reduces_S4000x128_S4000 hφ hacc)
              shapeCasts_S4000_S4000x1)
            (broadcast S4000x1 (Scalar.ofBits (F := Ideal) .f32 0x43000000#32)))
          (broadcast S4000x1 (Scalar.ofBits (F := Ideal) .f32 0x3727C5AC#32))))
        broadcasts_S4000x1_S4000x128 (ix2 p c)
      = Ideal.rsqrt (Ideal.div (∑ k : Fin 128, (X (ix2 p k) - μ) * (X (ix2 p k) - μ)) (Ideal.ofBits .f32 0x43000000#32)
          + Ideal.ofBits .f32 0x3727C5AC#32) := by
  rw [Cert.NodeRow.Ker.broadcastTo_a1_ab_apply]
  show Ideal.rsqrt (Ideal.div (shapeCast S4000x1 _ shapeCasts_S4000_S4000x1 (ix2 p (0 : Fin 1))) (Ideal.ofBits .f32 0x43000000#32)
    + Ideal.ofBits .f32 0x3727C5AC#32) = _
  rw [Cert.NodeRow.Ker.rowSumCol_apply]
  refine congrArg (fun t => Ideal.rsqrt (Ideal.div t (Ideal.ofBits .f32 0x43000000#32) + Ideal.ofBits .f32 0x3727C5AC#32))
    (Finset.sum_congr rfl fun k _ => ?_)
  show (X (ix2 p k) - M (ix2 p k)) * (X (ix2 p k) - M (ix2 p k)) = _
  rw [hM k]

/-- The body's last steps at an entry, for any centring block `M` and any factor block `R` whose entries at `(p, q)` are
    known: `(X - M) · R`, times the scale row, plus the shift row, clipped at zero — the elementwise operations are the
    extended reals' operations on the entries, and a row broadcast over the rows reads its lane. -/
theorem normChain_entry (X M R : FVec Ideal S4000x128 .f32) (g b : FVec Ideal S1x128 .f32) (μ ρ : EReal)
    (p : Fin 4000) (q : Fin 128) (hM : M (ix2 p q) = μ) (hR : R (ix2 p q) = ρ) :
    maximumf
        (addf (mulf (mulf (subf X M) R) (broadcastTo S4000x128 g broadcasts_S1x128_S4000x128))
          (broadcastTo S4000x128 b broadcasts_S1x128_S4000x128))
        (broadcast S4000x128 (Scalar.ofBits (F := Ideal) .f32 0x00000000#32)) (ix2 p q)
      = max ((X (ix2 p q) - μ) * ρ * g (ix2 (0 : Fin 1) q) + b (ix2 (0 : Fin 1) q)) (Ideal.ofBits .f32 0x00000000#32) := by
  show max ((X (ix2 p q) - M (ix2 p q)) * R (ix2 p q) * broadcastTo S4000x128 g broadcasts_S1x128_S4000x128 (ix2 p q)
      + broadcastTo S4000x128 b broadcasts_S1x128_S4000x128 (ix2 p q)) (Ideal.ofBits .f32 0x00000000#32) = _
  rw [hM, hR, broadcastTo_1b_ab_apply, broadcastTo_1b_ab_apply]

/-- The first normalisation body at an entry: the block's own row statistics. -/
theorem norm2_entry (x0 : Vec Ideal S4000x128 .f32) (x1 x2 : Vec Ideal S1x128 .f32) (p : Fin 4000) (q : Fin 128) :
    k2_pay1 (F := Ideal) x0 x1 x2 (ix2 p q)
      = normEntry (x0 (ix2 p q)) (rowMean x0 p) (rowVar x0 p) (x1 (ix2 (0 : Fin 1) q)) (x2 (ix2 (0 : Fin 1) q)) := by
  unfold k2_pay1
  rw [shapeCast_self, shapeCast_self, shapeCast_self]
  -- the centring block is the row's mean along row `p`; the factor block is the reciprocal deviation, whose squares are
  -- centred by that same block; the variance in the target is this sum of centred squares over `128.0`
  exact normChain_entry x0 _ _ x1 x2 (rowMean x0 p) (Ideal.rsqrt (rowVar x0 p + Ideal.ofBits .f32 0x3727C5AC#32)) p q
    (meanBlock_apply x0 _ _ p q)
    (rstdBlock_apply x0 _ (rowMean x0 p) _ _ p (fun k => meanBlock_apply x0 _ _ p k) q)

/-- The second normalisation body at an entry. -/
theorem norm5_entry (x0 : Vec Ideal S4000x128 .f32) (x1 x2 : Vec Ideal S1x128 .f32) (p : Fin 4000) (q : Fin 128) :
    k5_pay1 (F := Ideal) x0 x1 x2 (ix2 p q)
      = normEntry (x0 (ix2 p q)) (rowMean x0 p) (rowVar x0 p) (x1 (ix2 (0 : Fin 1) q)) (x2 (ix2 (0 : Fin 1) q)) := by
  unfold k5_pay1
  rw [shapeCast_self, shapeCast_self, shapeCast_self]
  exact normChain_entry x0 _ _ x1 x2 (rowMean x0 p) (Ideal.rsqrt (rowVar x0 p + Ideal.ofBits .f32 0x3727C5AC#32)) p q
    (meanBlock_apply x0 _ _ p q)
    (rstdBlock_apply x0 _ (rowMean x0 p) _ _ p (fun k => meanBlock_apply x0 _ _ p k) q)

end Cert.GraphConv.Body

end
-- ==== Proof.RowPoints.lean ====
/-
  One grid point's block against the whole array, over variables.

  A kernel region's point `t` sees blocks: rows `4000 t … 4000 t + 3999` of the features, and a weight matrix or a
  parameter row whole. What it stores at the block's entry `(p, q)` is the row-wise specification of the WHOLE arrays
  at the array entry the block's entry sits at, as soon as the block's row `p` is the array's row there lane by
  lane. These lemmas say that once, over plain functions, so that a region's proof only supplies the index
  equations.
-/
import proofs.«136163_j70188355551853_1_alg».proof.Proof.RowSpecs

open scoped BigOperators

noncomputable section

namespace Cert.GraphConv

open Idealize.ShloMosaic Idealize.ShloMosaic.ValueIdx

/-- An entry of the features plus the bias row's lane is `addRow` at the array entry. -/
theorem addRow_point {a n : ℕ} (X : FVec Ideal ⟨2, ![a, n]⟩ .f32) (R : FVec Ideal ⟨2, ![1, n]⟩ .f32)
    (i0 i2 : (⟨2, ![a, n]⟩ : Shape).Idx) (i1 : (⟨2, ![1, n]⟩ : Shape).Idx)
    (h0 : i0 = i2) (h1 : i1 = ix2 (0 : Fin 1) (i2 1)) : X i0 + R i1 = addRow X (rowVec R) i2 := by
  subst h0 h1; rfl

/-- A sum of products over the contracted axis is `matProd` at the array entry, when the left factors are the
    array's row there and the right factors the weight matrix's column there. -/
theorem matProd_point {a k n : ℕ} (X : FVec Ideal ⟨2, ![a, k]⟩ .f32) (W : FVec Ideal ⟨2, ![k, n]⟩ .f32)
    (f g : Fin k → EReal) (i2 : (⟨2, ![a, n]⟩ : Shape).Idx)
    (hf : ∀ j, f j = X (ix2 (i2 0) j)) (hg : ∀ j, g j = W (ix2 j (i2 1))) :
    ∑ j : Fin k, f j * g j = matProd X W i2 := by
  unfold matProd
  exact Finset.sum_congr rfl fun j _ => by rw [hf j, hg j]

/-- The normalised entry computed from a block's own row is `normRelu` at the array entry, when the block's row
    is the array's row there and the parameter rows' lanes are the array entry's lane. -/
theorem normRelu_point {a b : ℕ} (X : FVec Ideal ⟨2, ![a, 128]⟩ .f32) (G Bt : FVec Ideal ⟨2, ![1, 128]⟩ .f32)
    (B0 : FVec Ideal ⟨2, ![b, 128]⟩ .f32) (p : Fin b) (v gq bq : EReal) (i2 : (⟨2, ![a, 128]⟩ : Shape).Idx)
    (hrow : ∀ k : Fin 128, B0 (ix2 p k) = X (ix2 (i2 0) k)) (hv : v = X i2)
    (hg : gq = G (ix2 (0 : Fin 1) (i2 1))) (hb : bq = Bt (ix2 (0 : Fin 1) (i2 1))) :
    normEntry v (rowMean B0 p) (rowVar B0 p) gq bq = normRelu X (rowVec G) (rowVec Bt) i2 := by
  subst hv hg hb
  unfold normRelu
  rw [rowMean_congr X B0 (i2 0) p hrow, rowVar_congr X B0 (i2 0) p hrow]
  rfl

end Cert.GraphConv

end
-- ==== Proof.ProdRegions.lean ====
/-
  The three matrix-product regions, from blocks of rows to the whole array.

  Each region walks 25 grid points; point `t` fetches rows `4000 t … 4000 t + 3999` of the features and the whole
  weight matrix (the same block at every point) and writes back the same rows of the product. Row `p` of a block is
  row `4000 t + p` of the array lane by lane, and the weight matrix's block is the matrix, so what point `t` stores is
  block `t` of the product of the whole arrays; the 25 blocks cover the 100000 rows.
-/
import proofs.«136163_j70188355551853_1_alg».proof.Proof.Gen.KernelIdeal.Frame
import proofs.«136163_j70188355551853_1_alg».proof.Proof.BodyValues
import proofs.«136163_j70188355551853_1_alg».proof.Proof.RowSpecs
import proofs.«136163_j70188355551853_1_alg».proof.Proof.RowPoints
import Idealize.ShloMosaic.Lib.Pipeline.Value
import Idealize.ShloMosaic.Lib.ValueIdx

set_option maxRecDepth 16384

open scoped BigOperators

noncomputable section

namespace Cert.GraphConv.Ker

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.GraphConv

variable (V : (c : Dev nD) → (b : Ref sig .tc) → Buf (Elt Ideal) ((c : Thread nD τ).loc b))

private theorem hz : (![0, 0] : Fin 2 → Nat) = fun _ => 0 := funext fun a => by fin_cases a <;> rfl

/-! ## The product region writing `main_v30` -/

/-- The printed index maps over the 25 grid points: the feature window and the output window sit at row block `t`,
    lane block 0; the weight matrix's window stays at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the features with the weight matrix. -/
theorem flushed0 (c : Dev nD) (t : Fin cfg0.N) :
    (dat0 V c).flushed 2 t = ((cfg0.win 2).blk t).view.read (Elt Ideal)
      (matProd (a := 100000) (k := 128) (n := 128) (V c main_arg0) (V c main_arg2)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  obtain ⟨e0, e1, e2, e3, e4, e5⟩ := idx_facts0 t
  funext j
  obtain ⟨p, q, rfl⟩ : ∃ (p : Fin 4000) (q : Fin 128), j = ix2 p q := ⟨j 0, j 1, eq_ix2 j⟩
  refine (Body.prod0_entry (iblk0 V c 0 t) (iblk0 V c 1 t) p q).trans ?_
  have hrow : ∀ k : Fin 128, ((cfg0.win 0).blk t).view.emb (ix2 p k)
      = ix2 ((((cfg0.win 2).blk t).view.emb (ix2 p q)) 0) k := fun k => by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  have hcol : ∀ k : Fin 128, ((cfg0.win 1).blk t).view.emb (ix2 k q)
      = ix2 k ((((cfg0.win 2).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact matProd_point (a := 100000) (k := 128) (n := 128) (V c main_arg0) (V c main_arg2)
    (fun k => iblk0 V c 0 t (ix2 p k)) (fun k => iblk0 V c 1 t (ix2 k q))
    (((cfg0.win 2).blk t).view.emb (ix2 p q))
    (fun k => congrArg (V c main_arg0) (hrow k)) (fun k => congrArg (V c main_arg2) (hcol k))

/-- Every row of the array lies in the block of the point numbered by its row block. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  obtain ⟨t0, ht0⟩ : ∃ t0 : Fin cfg0.N, t0.val = (i 0).val / 4000 := ⟨⟨(i 0).val / 4000, by rw [hN]; omega⟩, rfl⟩
  obtain ⟨-, -, -, -, e4, e5⟩ := idx_facts0 t0
  refine ⟨t0, flush0_2 t0, ?_⟩
  show i ∈ ((View.whole main_v30).slice (win0_2.rect t0)).set
  rw [View.set_slice_whole, Rect.mem_set_unit]
  intro a
  match a with
  | ⟨0, _⟩ => show win0_2.index t0 (0 : Fin 2) * 4000 ≤ (i 0).val ∧ (i 0).val < win0_2.index t0 (0 : Fin 2) * 4000 + 4000; omega
  | ⟨1, _⟩ => show win0_2.index t0 (1 : Fin 2) * 128 ≤ (i 1).val ∧ (i 1).val < win0_2.index t0 (1 : Fin 2) * 128 + 128; omega

/-- The output array after the region: the product of the features with the weight matrix. -/
theorem arr0 (c : Dev nD) : (dat0 V c).arrAt 2 cfg0.N
    = matProd (a := 100000) (k := 128) (n := 128) (V c main_arg0) (V c main_arg2) :=
  (dat0 V c).arrAt_eq_of_cover 2 _ (fun t _ => flushed0 V c t) (cover0)

/-! ## The product region writing `main_v49` -/

/-- The printed index maps over the 25 grid points: the feature window and the output window sit at row block `t`,
    lane block 0; the weight matrix's window stays at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the features with the weight matrix. -/
theorem flushed3 (c : Dev nD) (t : Fin cfg3.N) :
    (dat3 V c).flushed 2 t = ((cfg3.win 2).blk t).view.read (Elt Ideal)
      (matProd (a := 100000) (k := 128) (n := 128) (V c main_v48) (V c main_arg4)) := by
  show (cfg3.win 2).cut (grid3.coords t) ((dat3 V c).after 2 t) = _
  rw [after3_2]
  unfold out3_2
  rw [View.canon_unit_zero hz]
  simp only [View.ld_unit_zero (S := S4000x128) hz, View.ld_unit_zero (S := S128x128) hz]
  obtain ⟨e0, e1, e2, e3, e4, e5⟩ := idx_facts3 t
  funext j
  obtain ⟨p, q, rfl⟩ : ∃ (p : Fin 4000) (q : Fin 128), j = ix2 p q := ⟨j 0, j 1, eq_ix2 j⟩
  refine (Body.prod3_entry (iblk3 V c 0 t) (iblk3 V c 1 t) p q).trans ?_
  have hrow : ∀ k : Fin 128, ((cfg3.win 0).blk t).view.emb (ix2 p k)
      = ix2 ((((cfg3.win 2).blk t).view.emb (ix2 p q)) 0) k := fun k => by
    funext a; apply Fin.ext
    match a with
    | ⟨0, _⟩ => show win3_0.index t (0 : Fin 2) * 4000 + 1 * p.val = win3_2.index t (0 : Fin 2) * 4000 + 1 * p.val; omega
    | ⟨1, _⟩ => show win3_0.index t (1 : Fin 2) * 128 + 1 * k.val = k.val; omega
  have hcol : ∀ k : Fin 128, ((cfg3.win 1).blk t).view.emb (ix2 k q)
      = ix2 k ((((cfg3.win 2).blk t).view.emb (ix2 p q)) 1) := fun k => by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  exact matProd_point (a := 100000) (k := 128) (n := 128) (V c main_v48) (V c main_arg4)
    (fun k => iblk3 V c 0 t (ix2 p k)) (fun k => iblk3 V c 1 t (ix2 k q))
    (((cfg3.win 2).blk t).view.emb (ix2 p q))
    (fun k => congrArg (V c main_v48) (hrow k)) (fun k => congrArg (V c main_arg4) (hcol k))

/-- Every row of the array lies in the block of the point numbered by its row block. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 25 := N_3
  obtain ⟨t0, ht0⟩ : ∃ t0 : Fin cfg3.N, t0.val = (i 0).val / 4000 := ⟨⟨(i 0).val / 4000, by rw [hN]; omega⟩, rfl⟩
  obtain ⟨-, -, -, -, e4, e5⟩ := idx_facts3 t0
  refine ⟨t0, flush3_2 t0, ?_⟩
  show i ∈ ((View.whole main_v49).slice (win3_2.rect t0)).set
  rw [View.set_slice_whole, Rect.mem_set_unit]
  intro a
  match a with
  | ⟨0, _⟩ => show win3_2.index t0 (0 : Fin 2) * 4000 ≤ (i 0).val ∧ (i 0).val < win3_2.index t0 (0 : Fin 2) * 4000 + 4000; omega
  | ⟨1, _⟩ => show win3_2.index t0 (1 : Fin 2) * 128 ≤ (i 1).val ∧ (i 1).val < win3_2.index t0 (1 : Fin 2) * 128 + 128; omega

/-- The output array after the region: the product of the features with the weight matrix. -/
theorem arr3 (c : Dev nD) : (dat3 V c).arrAt 2 cfg3.N
    = matProd (a := 100000) (k := 128) (n := 128) (V c main_v48) (V c main_arg4) :=
  (dat3 V c).arrAt_eq_of_cover 2 _ (fun t _ => flushed3 V c t) (cover3)

/-! ## The product region writing `main_v68` -/

/-- The printed index maps over the 25 grid points: the feature window and the output window sit at row block `t`,
    lane block 0; the weight matrix's window stays at block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the product of the features with the weight matrix. -/
theorem flushed6 (c : Dev nD) (t : Fin cfg6.N) :
    (dat6 V c).flushed 2 t = ((cfg6.win 2).blk t).view.read (Elt Ideal)
      (matProd (a := 100000) (k := 128) (n := 64) (V c main_v67) (V c main_arg6)) := by
  show (cfg6.win 2).cut (grid6.coords t) ((dat6 V c).after 2 t) = _
  rw [after6_2]
  unfold out6_2
  rw [View.canon_unit_zero hz]
  simp only [View.ld_unit_zero (S := S4000x128) hz, View.ld_unit_zero (S := S128x64) hz]
  obtain ⟨e0, e1, e2, e3, e4, e5⟩ := idx_facts6 t
  funext j
  obtain ⟨p, q, rfl⟩ : ∃ (p : Fin 4000) (q : Fin 64), j = ix2 p q := ⟨j 0, j 1, eq_ix2 j⟩
  refine (Body.prod6_entry (iblk6 V c 0 t) (iblk6 V c 1 t) p q).trans ?_
  have hrow : ∀ k : Fin 128, ((cfg6.win 0).blk t).view.emb (ix2 p k)
      = ix2 ((((cfg6.win 2).blk t).view.emb (ix2 p q)) 0) k := fun k => by
    funext a; apply Fin.ext
    match a with
    | ⟨0, _⟩ => show win6_0.index t (0 : Fin 2) * 4000 + 1 * p.val = win6_2.index t (0 : Fin 2) * 4000 + 1 * p.val; omega
    | ⟨1, _⟩ => show win6_0.index t (1 : Fin 2) * 128 + 1 * k.val = k.val; omega
  have hcol : ∀ k : Fin 128, ((cfg6.win 1).blk t).view.emb (ix2 k q)
      = ix2 k ((((cfg6.win 2).blk t).view.emb (ix2 p q)) 1) := fun k => by
    funext a; apply Fin.ext
    match a with
    | ⟨0, _⟩ => show win6_1.index t (0 : Fin 2) * 128 + 1 * k.val = k.val; omega
    | ⟨1, _⟩ => show win6_1.index t (1 : Fin 2) * 64 + 1 * q.val = win6_2.index t (1 : Fin 2) * 64 + 1 * q.val; omega
  exact matProd_point (a := 100000) (k := 128) (n := 64) (V c main_v67) (V c main_arg6)
    (fun k => iblk6 V c 0 t (ix2 p k)) (fun k => iblk6 V c 1 t (ix2 k q))
    (((cfg6.win 2).blk t).view.emb (ix2 p q))
    (fun k => congrArg (V c main_v67) (hrow k)) (fun k => congrArg (V c main_arg6) (hcol k))

/-- Every row of the array lies in the block of the point numbered by its row block. -/
theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 25 := N_6
  obtain ⟨t0, ht0⟩ : ∃ t0 : Fin cfg6.N, t0.val = (i 0).val / 4000 := ⟨⟨(i 0).val / 4000, by rw [hN]; omega⟩, rfl⟩
  obtain ⟨-, -, -, -, e4, e5⟩ := idx_facts6 t0
  refine ⟨t0, flush6_2 t0, ?_⟩
  show i ∈ ((View.whole main_v68).slice (win6_2.rect t0)).set
  rw [View.set_slice_whole, Rect.mem_set_unit]
  intro a
  match a with
  | ⟨0, _⟩ => show win6_2.index t0 (0 : Fin 2) * 4000 ≤ (i 0).val ∧ (i 0).val < win6_2.index t0 (0 : Fin 2) * 4000 + 4000; omega
  | ⟨1, _⟩ => show win6_2.index t0 (1 : Fin 2) * 64 ≤ (i 1).val ∧ (i 1).val < win6_2.index t0 (1 : Fin 2) * 64 + 64; omega

/-- The output array after the region: the product of the features with the weight matrix. -/
theorem arr6 (c : Dev nD) : (dat6 V c).arrAt 2 cfg6.N
    = matProd (a := 100000) (k := 128) (n := 64) (V c main_v67) (V c main_arg6) :=
  (dat6 V c).arrAt_eq_of_cover 2 _ (fun t _ => flushed6 V c t) (cover6)

end Cert.GraphConv.Ker

end
-- ==== Proof.BiasRegions.lean ====
/-
  The three bias regions, from blocks of rows to the whole array.

  Each region walks 25 grid points; point `t` fetches rows `4000 t … 4000 t + 3999` of the aggregated features and
  the bias row (kept as a `[1, n]` array, the same block at every point), and writes back the same rows of the
  output. A block's coordinate is always block index × block size + the coordinate inside the block, so block `t`
  of "features plus bias row" is what point `t` stores; the 25 blocks cover the 100000 rows (row `r` lies in block
  `r / 4000`), so the output array ends as that one function of the region's entry contents.
-/
import proofs.«136163_j70188355551853_1_alg».proof.Proof.Gen.KernelIdeal.Frame
import proofs.«136163_j70188355551853_1_alg».proof.Proof.BodyValues
import proofs.«136163_j70188355551853_1_alg».proof.Proof.RowSpecs
import proofs.«136163_j70188355551853_1_alg».proof.Proof.RowPoints
import Idealize.ShloMosaic.Lib.Pipeline.Value
import Idealize.ShloMosaic.Lib.ValueIdx

set_option maxRecDepth 16384

open scoped BigOperators

noncomputable section

namespace Cert.GraphConv.Ker

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.GraphConv

variable (V : (c : Dev nD) → (b : Ref sig .tc) → Buf (Elt Ideal) ((c : Thread nD τ).loc b))

private theorem hz : (![0, 0] : Fin 2 → Nat) = fun _ => 0 := funext fun a => by fin_cases a <;> rfl

/-! ## The bias region writing `main_v45` -/

/-- The printed index maps over the 25 grid points: the feature window and the output window sit at row block `t`,
    lane block 0; the bias row's window stays at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the features plus the bias row. -/
theorem flushed1 (c : Dev nD) (t : Fin cfg1.N) :
    (dat1 V c).flushed 2 t = ((cfg1.win 2).blk t).view.read (Elt Ideal)
      (addRow (a := 100000) (n := 128) (V c main_v43) (rowVec (n := 128) (V c main_v44))) := by
  show (cfg1.win 2).cut (grid1.coords t) ((dat1 V c).after 2 t) = _
  rw [after1_2]
  unfold out1_2
  rw [View.canon_unit_zero hz]
  simp only [View.ld_unit_zero (S := S4000x128) hz, View.ld_unit_zero (S := S1x128) hz]
  obtain ⟨e0, e1, e2, e3, e4, e5⟩ := idx_facts1 t
  funext j
  obtain ⟨p, q, rfl⟩ : ∃ (p : Fin 4000) (q : Fin 128), j = ix2 p q := ⟨j 0, j 1, eq_ix2 j⟩
  refine (Body.bias1_entry (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact addRow_point (a := 100000) (n := 128) (V c main_v43) (V c main_v44)
    (((cfg1.win 0).blk t).view.emb (ix2 p q)) (((cfg1.win 2).blk t).view.emb (ix2 p q))
    (((cfg1.win 1).blk t).view.emb (ix2 (0 : Fin 1) q)) h0 h1

/-- Every row of the array lies in the block of the point numbered by its row block. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  obtain ⟨t0, ht0⟩ : ∃ t0 : Fin cfg1.N, t0.val = (i 0).val / 4000 := ⟨⟨(i 0).val / 4000, by rw [hN]; omega⟩, rfl⟩
  obtain ⟨-, -, -, -, e4, e5⟩ := idx_facts1 t0
  refine ⟨t0, flush1_2 t0, ?_⟩
  show i ∈ ((View.whole main_v45).slice (win1_2.rect t0)).set
  rw [View.set_slice_whole, Rect.mem_set_unit]
  intro a
  match a with
  | ⟨0, _⟩ => show win1_2.index t0 (0 : Fin 2) * 4000 ≤ (i 0).val ∧ (i 0).val < win1_2.index t0 (0 : Fin 2) * 4000 + 4000; omega
  | ⟨1, _⟩ => show win1_2.index t0 (1 : Fin 2) * 128 ≤ (i 1).val ∧ (i 1).val < win1_2.index t0 (1 : Fin 2) * 128 + 128; omega

/-- The output array after the region: the features plus the bias row, row by row. -/
theorem arr1 (c : Dev nD) : (dat1 V c).arrAt 2 cfg1.N
    = addRow (a := 100000) (n := 128) (V c main_v43) (rowVec (n := 128) (V c main_v44)) :=
  (dat1 V c).arrAt_eq_of_cover 2 _ (fun t _ => flushed1 V c t) (cover1)

/-! ## The bias region writing `main_v64` -/

/-- The printed index maps over the 25 grid points: the feature window and the output window sit at row block `t`,
    lane block 0; the bias row's window stays at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the features plus the bias row. -/
theorem flushed4 (c : Dev nD) (t : Fin cfg4.N) :
    (dat4 V c).flushed 2 t = ((cfg4.win 2).blk t).view.read (Elt Ideal)
      (addRow (a := 100000) (n := 128) (V c main_v62) (rowVec (n := 128) (V c main_v63))) := by
  show (cfg4.win 2).cut (grid4.coords t) ((dat4 V c).after 2 t) = _
  rw [after4_2]
  unfold out4_2
  rw [View.canon_unit_zero hz]
  simp only [View.ld_unit_zero (S := S4000x128) hz, View.ld_unit_zero (S := S1x128) hz]
  obtain ⟨e0, e1, e2, e3, e4, e5⟩ := idx_facts4 t
  funext j
  obtain ⟨p, q, rfl⟩ : ∃ (p : Fin 4000) (q : Fin 128), j = ix2 p q := ⟨j 0, j 1, eq_ix2 j⟩
  refine (Body.bias4_entry (iblk4 V c 0 t) (iblk4 V c 1 t) p q).trans ?_
  have h0 : ((cfg4.win 0).blk t).view.emb (ix2 p q) = ((cfg4.win 2).blk t).view.emb (ix2 p q) := by
    funext a; apply Fin.ext
    match a with
    | ⟨0, _⟩ => show win4_0.index t (0 : Fin 2) * 4000 + 1 * p.val = win4_2.index t (0 : Fin 2) * 4000 + 1 * p.val; omega
    | ⟨1, _⟩ => show win4_0.index t (1 : Fin 2) * 128 + 1 * q.val = win4_2.index t (1 : Fin 2) * 128 + 1 * q.val; omega
  have h1 : ((cfg4.win 1).blk t).view.emb (ix2 (0 : Fin 1) q) = ix2 (0 : Fin 1) ((((cfg4.win 2).blk t).view.emb (ix2 p q)) 1) := by
    funext a; apply Fin.ext
    match a with
    | ⟨0, _⟩ => show win4_1.index t (0 : Fin 2) * 1 + 1 * 0 = 0; omega
    | ⟨1, _⟩ => show win4_1.index t (1 : Fin 2) * 128 + 1 * q.val = win4_2.index t (1 : Fin 2) * 128 + 1 * q.val; omega
  exact addRow_point (a := 100000) (n := 128) (V c main_v62) (V c main_v63)
    (((cfg4.win 0).blk t).view.emb (ix2 p q)) (((cfg4.win 2).blk t).view.emb (ix2 p q))
    (((cfg4.win 1).blk t).view.emb (ix2 (0 : Fin 1) q)) h0 h1

/-- Every row of the array lies in the block of the point numbered by its row block. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 25 := N_4
  obtain ⟨t0, ht0⟩ : ∃ t0 : Fin cfg4.N, t0.val = (i 0).val / 4000 := ⟨⟨(i 0).val / 4000, by rw [hN]; omega⟩, rfl⟩
  obtain ⟨-, -, -, -, e4, e5⟩ := idx_facts4 t0
  refine ⟨t0, flush4_2 t0, ?_⟩
  show i ∈ ((View.whole main_v64).slice (win4_2.rect t0)).set
  rw [View.set_slice_whole, Rect.mem_set_unit]
  intro a
  match a with
  | ⟨0, _⟩ => show win4_2.index t0 (0 : Fin 2) * 4000 ≤ (i 0).val ∧ (i 0).val < win4_2.index t0 (0 : Fin 2) * 4000 + 4000; omega
  | ⟨1, _⟩ => show win4_2.index t0 (1 : Fin 2) * 128 ≤ (i 1).val ∧ (i 1).val < win4_2.index t0 (1 : Fin 2) * 128 + 128; omega

/-- The output array after the region: the features plus the bias row, row by row. -/
theorem arr4 (c : Dev nD) : (dat4 V c).arrAt 2 cfg4.N
    = addRow (a := 100000) (n := 128) (V c main_v62) (rowVec (n := 128) (V c main_v63)) :=
  (dat4 V c).arrAt_eq_of_cover 2 _ (fun t _ => flushed4 V c t) (cover4)

/-! ## The bias region writing `main_v83` -/

/-- The printed index maps over the 25 grid points: the feature window and the output window sit at row block `t`,
    lane block 0; the bias row's window stays at block (0, 0). -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the features plus the bias row. -/
theorem flushed7 (c : Dev nD) (t : Fin cfg7.N) :
    (dat7 V c).flushed 2 t = ((cfg7.win 2).blk t).view.read (Elt Ideal)
      (addRow (a := 100000) (n := 64) (V c main_v81) (rowVec (n := 64) (V c main_v82))) := by
  show (cfg7.win 2).cut (grid7.coords t) ((dat7 V c).after 2 t) = _
  rw [after7_2]
  unfold out7_2
  rw [View.canon_unit_zero hz]
  simp only [View.ld_unit_zero (S := S4000x64) hz, View.ld_unit_zero (S := S1x64) hz]
  obtain ⟨e0, e1, e2, e3, e4, e5⟩ := idx_facts7 t
  funext j
  obtain ⟨p, q, rfl⟩ : ∃ (p : Fin 4000) (q : Fin 64), j = ix2 p q := ⟨j 0, j 1, eq_ix2 j⟩
  refine (Body.bias7_entry (iblk7 V c 0 t) (iblk7 V c 1 t) p q).trans ?_
  have h0 : ((cfg7.win 0).blk t).view.emb (ix2 p q) = ((cfg7.win 2).blk t).view.emb (ix2 p q) := by
    funext a; apply Fin.ext
    match a with
    | ⟨0, _⟩ => show win7_0.index t (0 : Fin 2) * 4000 + 1 * p.val = win7_2.index t (0 : Fin 2) * 4000 + 1 * p.val; omega
    | ⟨1, _⟩ => show win7_0.index t (1 : Fin 2) * 64 + 1 * q.val = win7_2.index t (1 : Fin 2) * 64 + 1 * q.val; omega
  have h1 : ((cfg7.win 1).blk t).view.emb (ix2 (0 : Fin 1) q) = ix2 (0 : Fin 1) ((((cfg7.win 2).blk t).view.emb (ix2 p q)) 1) := by
    funext a; apply Fin.ext
    match a with
    | ⟨0, _⟩ => show win7_1.index t (0 : Fin 2) * 1 + 1 * 0 = 0; omega
    | ⟨1, _⟩ => show win7_1.index t (1 : Fin 2) * 64 + 1 * q.val = win7_2.index t (1 : Fin 2) * 64 + 1 * q.val; omega
  exact addRow_point (a := 100000) (n := 64) (V c main_v81) (V c main_v82)
    (((cfg7.win 0).blk t).view.emb (ix2 p q)) (((cfg7.win 2).blk t).view.emb (ix2 p q))
    (((cfg7.win 1).blk t).view.emb (ix2 (0 : Fin 1) q)) h0 h1

/-- Every row of the array lies in the block of the point numbered by its row block. -/
theorem cover7 (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  have hN : cfg7.N = 25 := N_7
  obtain ⟨t0, ht0⟩ : ∃ t0 : Fin cfg7.N, t0.val = (i 0).val / 4000 := ⟨⟨(i 0).val / 4000, by rw [hN]; omega⟩, rfl⟩
  obtain ⟨-, -, -, -, e4, e5⟩ := idx_facts7 t0
  refine ⟨t0, flush7_2 t0, ?_⟩
  show i ∈ ((View.whole main_v83).slice (win7_2.rect t0)).set
  rw [View.set_slice_whole, Rect.mem_set_unit]
  intro a
  match a with
  | ⟨0, _⟩ => show win7_2.index t0 (0 : Fin 2) * 4000 ≤ (i 0).val ∧ (i 0).val < win7_2.index t0 (0 : Fin 2) * 4000 + 4000; omega
  | ⟨1, _⟩ => show win7_2.index t0 (1 : Fin 2) * 64 ≤ (i 1).val ∧ (i 1).val < win7_2.index t0 (1 : Fin 2) * 64 + 64; omega

/-- The output array after the region: the features plus the bias row, row by row. -/
theorem arr7 (c : Dev nD) : (dat7 V c).arrAt 2 cfg7.N
    = addRow (a := 100000) (n := 64) (V c main_v81) (rowVec (n := 64) (V c main_v82)) :=
  (dat7 V c).arrAt_eq_of_cover 2 _ (fun t _ => flushed7 V c t) (cover7)

end Cert.GraphConv.Ker

end
-- ==== Proof.NormRegions.lean ====
/-
  The two normalisation regions, from blocks of rows to the whole array.

  Each region walks 25 grid points; point `t` fetches rows `4000 t … 4000 t + 3999` of the features and the scale and
  shift rows (kept as `[1, 128]` arrays, the same block at every point) and writes back the same rows normalised.
  The normalisation of a row uses that row's own mean and variance only, so computing it inside a block of rows
  gives block `t` of the row-wise normalisation of the whole array; the 25 blocks cover the 100000 rows.
-/
import proofs.«136163_j70188355551853_1_alg».proof.Proof.Gen.KernelIdeal.Frame
import proofs.«136163_j70188355551853_1_alg».proof.Proof.BodyValues
import proofs.«136163_j70188355551853_1_alg».proof.Proof.RowSpecs
import proofs.«136163_j70188355551853_1_alg».proof.Proof.RowPoints
import Idealize.ShloMosaic.Lib.Pipeline.Value
import Idealize.ShloMosaic.Lib.ValueIdx

set_option maxRecDepth 16384

open scoped BigOperators

noncomputable section

namespace Cert.GraphConv.Ker

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.GraphConv

variable (V : (c : Dev nD) → (b : Ref sig .tc) → Buf (Elt Ideal) ((c : Thread nD τ).loc b))

private theorem hz : (![0, 0] : Fin 2 → Nat) = fun _ => 0 := funext fun a => by fin_cases a <;> rfl

/-! ## The normalisation region writing `main_v48` -/

/-- The printed index maps over the 25 grid points: the feature window and the output window sit at row block `t`,
    lane block 0; the scale row's and the shift row's windows stay at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 2000000 in
/-- What point `t` writes back is block `t` of the row-wise normalised, scaled, shifted and clipped features:
    a row's mean and variance are the same whether read in the block or in the array. -/
theorem flushed2 (c : Dev nD) (t : Fin cfg2.N) :
    (dat2 V c).flushed 3 t = ((cfg2.win 3).blk t).view.read (Elt Ideal)
      (normRelu (a := 100000) (V c main_v45) (rowVec (n := 128) (V c main_v46)) (rowVec (n := 128) (V c main_v47))) := by
  show (cfg2.win 3).cut (grid2.coords t) ((dat2 V c).after 3 t) = _
  rw [after2_3]
  unfold out2_3
  rw [View.canon_unit_zero hz]
  simp only [View.ld_unit_zero (S := S4000x128) hz, View.ld_unit_zero (S := S1x128) hz]
  obtain ⟨e0, e1, e2, e3, e4, e5, e6, e7⟩ := idx_facts2 t
  funext j
  obtain ⟨p, q, rfl⟩ : ∃ (p : Fin 4000) (q : Fin 128), j = ix2 p q := ⟨j 0, j 1, eq_ix2 j⟩
  refine (Body.norm2_entry (iblk2 V c 0 t) (iblk2 V c 1 t) (iblk2 V c 2 t) p q).trans ?_
  have hrow : ∀ k : Fin 128, ((cfg2.win 0).blk t).view.emb (ix2 p k)
      = ix2 ((((cfg2.win 3).blk t).view.emb (ix2 p q)) 0) k := fun k => by
    funext a; apply Fin.ext
    match a with
    | ⟨0, _⟩ => show win2_0.index t (0 : Fin 2) * 4000 + 1 * p.val = win2_3.index t (0 : Fin 2) * 4000 + 1 * p.val; omega
    | ⟨1, _⟩ => show win2_0.index t (1 : Fin 2) * 128 + 1 * k.val = k.val; omega
  have h0 : ((cfg2.win 0).blk t).view.emb (ix2 p q) = ((cfg2.win 3).blk t).view.emb (ix2 p q) := by
    funext a; apply Fin.ext
    match a with
    | ⟨0, _⟩ => show win2_0.index t (0 : Fin 2) * 4000 + 1 * p.val = win2_3.index t (0 : Fin 2) * 4000 + 1 * p.val; omega
    | ⟨1, _⟩ => show win2_0.index t (1 : Fin 2) * 128 + 1 * q.val = win2_3.index t (1 : Fin 2) * 128 + 1 * q.val; omega
  have h1 : ((cfg2.win 1).blk t).view.emb (ix2 (0 : Fin 1) q) = ix2 (0 : Fin 1) ((((cfg2.win 3).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_3.index t (1 : Fin 2) * 128 + 1 * q.val; omega
  have h2 : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  exact normRelu_point (a := 100000) (b := 4000) (V c main_v45) (V c main_v46) (V c main_v47) (iblk2 V c 0 t) p
    (iblk2 V c 0 t (ix2 p q)) (iblk2 V c 1 t (ix2 (0 : Fin 1) q)) (iblk2 V c 2 t (ix2 (0 : Fin 1) q))
    (((cfg2.win 3).blk t).view.emb (ix2 p q))
    (fun k => congrArg (V c main_v45) (hrow k)) (congrArg (V c main_v45) h0) (congrArg (V c main_v46) h1) (congrArg (V c main_v47) h2)

/-- Every row of the array lies in the block of the point numbered by its row block. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 25 := N_2
  obtain ⟨t0, ht0⟩ : ∃ t0 : Fin cfg2.N, t0.val = (i 0).val / 4000 := ⟨⟨(i 0).val / 4000, by rw [hN]; omega⟩, rfl⟩
  obtain ⟨-, -, -, -, -, -, e6, e7⟩ := idx_facts2 t0
  refine ⟨t0, flush2_3 t0, ?_⟩
  show i ∈ ((View.whole main_v48).slice (win2_3.rect t0)).set
  rw [View.set_slice_whole, Rect.mem_set_unit]
  intro a
  match a with
  | ⟨0, _⟩ => show win2_3.index t0 (0 : Fin 2) * 4000 ≤ (i 0).val ∧ (i 0).val < win2_3.index t0 (0 : Fin 2) * 4000 + 4000; omega
  | ⟨1, _⟩ => show win2_3.index t0 (1 : Fin 2) * 128 ≤ (i 1).val ∧ (i 1).val < win2_3.index t0 (1 : Fin 2) * 128 + 128; omega

/-- The output array after the region: the normalised, scaled, shifted and clipped features, row by row. -/
theorem arr2 (c : Dev nD) : (dat2 V c).arrAt 3 cfg2.N
    = normRelu (a := 100000) (V c main_v45) (rowVec (n := 128) (V c main_v46)) (rowVec (n := 128) (V c main_v47)) :=
  (dat2 V c).arrAt_eq_of_cover 3 _ (fun t _ => flushed2 V c t) (cover2)

/-! ## The normalisation region writing `main_v67` -/

/-- The printed index maps over the 25 grid points: the feature window and the output window sit at row block `t`,
    lane block 0; the scale row's and the shift row's windows stay at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 2000000 in
/-- What point `t` writes back is block `t` of the row-wise normalised, scaled, shifted and clipped features:
    a row's mean and variance are the same whether read in the block or in the array. -/
theorem flushed5 (c : Dev nD) (t : Fin cfg5.N) :
    (dat5 V c).flushed 3 t = ((cfg5.win 3).blk t).view.read (Elt Ideal)
      (normRelu (a := 100000) (V c main_v64) (rowVec (n := 128) (V c main_v65)) (rowVec (n := 128) (V c main_v66))) := by
  show (cfg5.win 3).cut (grid5.coords t) ((dat5 V c).after 3 t) = _
  rw [after5_3]
  unfold out5_3
  rw [View.canon_unit_zero hz]
  simp only [View.ld_unit_zero (S := S4000x128) hz, View.ld_unit_zero (S := S1x128) hz]
  obtain ⟨e0, e1, e2, e3, e4, e5, e6, e7⟩ := idx_facts5 t
  funext j
  obtain ⟨p, q, rfl⟩ : ∃ (p : Fin 4000) (q : Fin 128), j = ix2 p q := ⟨j 0, j 1, eq_ix2 j⟩
  refine (Body.norm5_entry (iblk5 V c 0 t) (iblk5 V c 1 t) (iblk5 V c 2 t) p q).trans ?_
  have hrow : ∀ k : Fin 128, ((cfg5.win 0).blk t).view.emb (ix2 p k)
      = ix2 ((((cfg5.win 3).blk t).view.emb (ix2 p q)) 0) k := fun k => by
    funext a; apply Fin.ext
    match a with
    | ⟨0, _⟩ => show win5_0.index t (0 : Fin 2) * 4000 + 1 * p.val = win5_3.index t (0 : Fin 2) * 4000 + 1 * p.val; omega
    | ⟨1, _⟩ => show win5_0.index t (1 : Fin 2) * 128 + 1 * k.val = k.val; omega
  have h0 : ((cfg5.win 0).blk t).view.emb (ix2 p q) = ((cfg5.win 3).blk t).view.emb (ix2 p q) := by
    funext a; apply Fin.ext
    match a with
    | ⟨0, _⟩ => show win5_0.index t (0 : Fin 2) * 4000 + 1 * p.val = win5_3.index t (0 : Fin 2) * 4000 + 1 * p.val; omega
    | ⟨1, _⟩ => show win5_0.index t (1 : Fin 2) * 128 + 1 * q.val = win5_3.index t (1 : Fin 2) * 128 + 1 * q.val; omega
  have h1 : ((cfg5.win 1).blk t).view.emb (ix2 (0 : Fin 1) q) = ix2 (0 : Fin 1) ((((cfg5.win 3).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_3.index t (1 : Fin 2) * 128 + 1 * q.val; omega
  have h2 : ((cfg5.win 2).blk t).view.emb (ix2 (0 : Fin 1) q) = ix2 (0 : Fin 1) ((((cfg5.win 3).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  exact normRelu_point (a := 100000) (b := 4000) (V c main_v64) (V c main_v65) (V c main_v66) (iblk5 V c 0 t) p
    (iblk5 V c 0 t (ix2 p q)) (iblk5 V c 1 t (ix2 (0 : Fin 1) q)) (iblk5 V c 2 t (ix2 (0 : Fin 1) q))
    (((cfg5.win 3).blk t).view.emb (ix2 p q))
    (fun k => congrArg (V c main_v64) (hrow k)) (congrArg (V c main_v64) h0) (congrArg (V c main_v65) h1) (congrArg (V c main_v66) h2)

/-- Every row of the array lies in the block of the point numbered by its row block. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 25 := N_5
  obtain ⟨t0, ht0⟩ : ∃ t0 : Fin cfg5.N, t0.val = (i 0).val / 4000 := ⟨⟨(i 0).val / 4000, by rw [hN]; omega⟩, rfl⟩
  obtain ⟨-, -, -, -, -, -, e6, e7⟩ := idx_facts5 t0
  refine ⟨t0, flush5_3 t0, ?_⟩
  show i ∈ ((View.whole main_v67).slice (win5_3.rect t0)).set
  rw [View.set_slice_whole, Rect.mem_set_unit]
  intro a
  match a with
  | ⟨0, _⟩ => show win5_3.index t0 (0 : Fin 2) * 4000 ≤ (i 0).val ∧ (i 0).val < win5_3.index t0 (0 : Fin 2) * 4000 + 4000; omega
  | ⟨1, _⟩ => show win5_3.index t0 (1 : Fin 2) * 128 ≤ (i 1).val ∧ (i 1).val < win5_3.index t0 (1 : Fin 2) * 128 + 128; omega

/-- The output array after the region: the normalised, scaled, shifted and clipped features, row by row. -/
theorem arr5 (c : Dev nD) : (dat5 V c).arrAt 3 cfg5.N
    = normRelu (a := 100000) (V c main_v64) (rowVec (n := 128) (V c main_v65)) (rowVec (n := 128) (V c main_v66)) :=
  (dat5 V c).arrAt_eq_of_cover 3 _ (fun t _ => flushed5 V c t) (cover5)

end Cert.GraphConv.Ker

end
-- ==== Proof.Boundaries.lean ====
/-
  The kernel's buffers, boundary by boundary, against the reference's stages.

  The idealized kernel program is sixteen segments: stretches of host operations and eight kernel regions. At each
  boundary the buffers of interest hold the reference's stage of the arguments:
    the edge lists with self loops appended and the edge coefficients (host operations both programs share);
    after a product region, the reference's matrix product (the region's rows tile the array, each row of the
    product depends on its own row of the features only);
    after an aggregation stretch, the reference's aggregation — the SAME host operations applied to equal inputs,
    so the scatter and the gathers are carried as one opaque function and never opened;
    after a bias region, the reference's broadcast bias addition; after a normalisation region, the reference's
    row-wise normalisation, scale, shift and clip.
  Between these, a region leaves every buffer that is not one of its arrays as entered, and a stretch leaves every
  buffer it does not write as entered: the edge lists, the coefficients and the later layers' parameters ride along.
  The last boundary's result buffer is then the reference's result stage of the arguments.
-/
import proofs.«136163_j70188355551853_1_alg».proof.Proof.Gen.KernelIdeal.Frame
import proofs.«136163_j70188355551853_1_alg».proof.Proof.RefRead
import proofs.«136163_j70188355551853_1_alg».proof.Proof.RefStages
import proofs.«136163_j70188355551853_1_alg».proof.Proof.RowSpecs
import proofs.«136163_j70188355551853_1_alg».proof.Proof.ProdRegions
import proofs.«136163_j70188355551853_1_alg».proof.Proof.BiasRegions
import proofs.«136163_j70188355551853_1_alg».proof.Proof.NormRegions
import Idealize.ShloMosaic.Lib.StableHlo.Run
import Idealize.ShloMosaic.Lib.ValueLayout

set_option maxRecDepth 16384

noncomputable section

namespace Cert.GraphConv.Ker

open Idealize.ShloMosaic Idealize.ShloMosaic.TcCoe Idealize.SL.Sem Idealize.ShloMosaic.StableHlo Idealize.ShloMosaic.ValueIdx
open Cert.KernelIdeal Cert.KernelIdeal.Gen Cert.GraphConv

variable (m : (ℓ : Loc nD τ sig) → Buf (Elt Ideal) ℓ) (ρ : Dev nD → PrngReg) (c : Dev nD)

/-! ## The host operations before the first region, stretch by stretch

The first stretch builds the edge lists with self loops appended, counts every node's degree by a scatter-addition
of ones, and takes its reciprocal square root and its comparison with zero; the second is the selection between
that root and zero; the third gathers the selected values at both ends of every edge and multiplies them. Each
stretch is read against the reference's stage with the stretch's inputs as hypotheses, so that no proof compares
more than one stretch of operations at a time and the scatter and the gathers are never opened. -/

set_option maxHeartbeats 4000000 in
theorem first_v3 : StableHlo.after hostOps0 (W0 (F := Ideal) m ρ c) (Proc.devRef .tc main_v3) = Cert.ReferenceIdeal.Read.val_main_v3 (F := Ideal) (m ((c : Thread nD τ).loc main_arg1)) := by
  after_results
  rfl

set_option maxHeartbeats 4000000 in
theorem first_v6 : StableHlo.after hostOps0 (W0 (F := Ideal) m ρ c) (Proc.devRef .tc main_v6) = Cert.ReferenceIdeal.Read.val_main_v6 (F := Ideal) (m ((c : Thread nD τ).loc main_arg1)) := by
  after_results
  rfl

set_option maxHeartbeats 4000000 in
theorem first_v12 : StableHlo.after hostOps0 (W0 (F := Ideal) m ρ c) (Proc.devRef .tc main_v12) = Cert.ReferenceIdeal.Read.val_main_v12 (F := Ideal) (m ((c : Thread nD τ).loc main_arg1)) := by
  after_results
  rfl

set_option maxHeartbeats 4000000 in
theorem first_v13 : StableHlo.after hostOps0 (W0 (F := Ideal) m ρ c) (Proc.devRef .tc main_v13) = Cert.ReferenceIdeal.Read.val_main_v13 (F := Ideal) (m ((c : Thread nD τ).loc main_arg1)) := by
  after_results
  rfl

set_option maxHeartbeats 4000000 in
theorem first_cst_2 : StableHlo.after hostOps0 (W0 (F := Ideal) m ρ c) (Proc.devRef .tc main_cst_2) = Cert.ReferenceIdeal.Read.val_main_cst_2 (F := Ideal) := by
  after_results
  rfl

set_option maxHeartbeats 4000000 in
/-- The selection between the reciprocal square root of a positive degree and zero. -/
theorem second_v14 (V : Valuation τ sig (Elt Ideal)) (h12 : V (Proc.devRef .tc main_v12) = Cert.ReferenceIdeal.Read.val_main_v12 (F := Ideal) (m ((c : Thread nD τ).loc main_arg1))) (h13 : V (Proc.devRef .tc main_v13) = Cert.ReferenceIdeal.Read.val_main_v13 (F := Ideal) (m ((c : Thread nD τ).loc main_arg1)))
    (hc : V (Proc.devRef .tc main_cst_2) = Cert.ReferenceIdeal.Read.val_main_cst_2 (F := Ideal)) :
    StableHlo.after hostOps0_1 V (Proc.devRef .tc main_v14) = Cert.ReferenceIdeal.Read.val_main_v14 (F := Ideal) (m ((c : Thread nD τ).loc main_arg1)) := by
  after_results_simp
  simp only [TRef.toBuf, TRef.ofBuf, cast_eq]
  rw [h12, h13, hc]
  rfl

theorem second_keeps_v3 (V : Valuation τ sig (Elt Ideal)) : StableHlo.after hostOps0_1 V (Proc.devRef .tc main_v3) = V (Proc.devRef .tc main_v3) := by
  after_results_simp

theorem second_keeps_v6 (V : Valuation τ sig (Elt Ideal)) : StableHlo.after hostOps0_1 V (Proc.devRef .tc main_v6) = V (Proc.devRef .tc main_v6) := by
  after_results_simp

set_option maxHeartbeats 4000000 in
/-- Every edge's coefficient: the selected values gathered at its two end nodes, multiplied. -/
theorem third_v29 (V : Valuation τ sig (Elt Ideal)) (h3 : V (Proc.devRef .tc main_v3) = Cert.ReferenceIdeal.Read.val_main_v3 (F := Ideal) (m ((c : Thread nD τ).loc main_arg1))) (h6 : V (Proc.devRef .tc main_v6) = Cert.ReferenceIdeal.Read.val_main_v6 (F := Ideal) (m ((c : Thread nD τ).loc main_arg1)))
    (h14 : V (Proc.devRef .tc main_v14) = Cert.ReferenceIdeal.Read.val_main_v14 (F := Ideal) (m ((c : Thread nD τ).loc main_arg1))) :
    StableHlo.after hostOps0_2 V (Proc.devRef .tc main_v29) = Cert.ReferenceIdeal.Read.val_main_v29 (F := Ideal) (m ((c : Thread nD τ).loc main_arg1)) := by
  after_results
  rw [h3, h6, h14]
  rfl

theorem third_keeps_v3 (V : Valuation τ sig (Elt Ideal)) : StableHlo.after hostOps0_2 V (Proc.devRef .tc main_v3) = V (Proc.devRef .tc main_v3) := by
  after_results
  try rfl

theorem third_keeps_v6 (V : Valuation τ sig (Elt Ideal)) : StableHlo.after hostOps0_2 V (Proc.devRef .tc main_v6) = V (Proc.devRef .tc main_v6) := by
  after_results
  try rfl

theorem at3_v3 : W3 (F := Ideal) m ρ c (Proc.devRef .tc main_v3) = Cert.ReferenceIdeal.Read.val_main_v3 (F := Ideal) (m ((c : Thread nD τ).loc main_arg1)) :=
  (third_keeps_v3 (W2 m ρ c)).trans ((second_keeps_v3 (W1 m ρ c)).trans (first_v3 m ρ c))
theorem at3_v6 : W3 (F := Ideal) m ρ c (Proc.devRef .tc main_v6) = Cert.ReferenceIdeal.Read.val_main_v6 (F := Ideal) (m ((c : Thread nD τ).loc main_arg1)) :=
  (third_keeps_v6 (W2 m ρ c)).trans ((second_keeps_v6 (W1 m ρ c)).trans (first_v6 m ρ c))
theorem at3_v29 : W3 (F := Ideal) m ρ c (Proc.devRef .tc main_v29) = Cert.ReferenceIdeal.Read.val_main_v29 (F := Ideal) (m ((c : Thread nD τ).loc main_arg1)) :=
  third_v29 m c (W2 m ρ c) ((second_keeps_v3 (W1 m ρ c)).trans (first_v3 m ρ c))
    ((second_keeps_v6 (W1 m ρ c)).trans (first_v6 m ρ c))
    (second_v14 m c (W1 m ρ c) (first_v12 m ρ c) (first_v13 m ρ c) (first_cst_2 m ρ c))

theorem at3_arg0 : W3 (F := Ideal) m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp
  first | done | rfl

theorem at3_arg2 : W3 (F := Ideal) m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp
  first | done | rfl

theorem at3_arg3 : W3 (F := Ideal) m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp
  first | done | rfl

theorem at3_arg4 : W3 (F := Ideal) m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp
  first | done | rfl

theorem at3_arg5 : W3 (F := Ideal) m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp
  first | done | rfl

theorem at3_arg6 : W3 (F := Ideal) m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp
  first | done | rfl

theorem at3_arg7 : W3 (F := Ideal) m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp
  first | done | rfl

theorem at3_arg8 : W3 (F := Ideal) m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp
  first | done | rfl

theorem at3_arg9 : W3 (F := Ideal) m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp
  first | done | rfl

theorem at3_arg10 : W3 (F := Ideal) m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp
  first | done | rfl

theorem at3_arg11 : W3 (F := Ideal) m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  after_results_simp
  first | done | rfl

/-! ## Region 0 (the first product) and what it leaves untouched -/

/-- The first layer's product. -/
theorem stage30 : W4 (F := Ideal) m ρ c (Proc.devRef .tc main_v30) = Cert.ReferenceIdeal.Read.val_main_v30 (F := Ideal) (m ((c : Thread nD τ).loc main_arg0)) (m ((c : Thread nD τ).loc main_arg2)) :=
  (W4_arr m ρ c 2).trans ((arr0 (V3 m ρ) c).trans
    ((congrArg₂ (matProd (a := 100000) (k := 128) (n := 128)) (at3_arg0 m ρ c) (at3_arg2 m ρ c)).trans
      (Ref.prod1 (x0 := (m ((c : Thread nD τ).loc main_arg0))) (x2 := (m ((c : Thread nD τ).loc main_arg2)))).symm))
theorem keep4_v3 : W4 (F := Ideal) m ρ c (Proc.devRef .tc main_v3) = Cert.ReferenceIdeal.Read.val_main_v3 (F := Ideal) (m ((c : Thread nD τ).loc main_arg1)) :=
  (W4_of_ne m ρ c main_v3 (by decide)).trans (at3_v3 m ρ c)
theorem keep4_v6 : W4 (F := Ideal) m ρ c (Proc.devRef .tc main_v6) = Cert.ReferenceIdeal.Read.val_main_v6 (F := Ideal) (m ((c : Thread nD τ).loc main_arg1)) :=
  (W4_of_ne m ρ c main_v6 (by decide)).trans (at3_v6 m ρ c)
theorem keep4_v29 : W4 (F := Ideal) m ρ c (Proc.devRef .tc main_v29) = Cert.ReferenceIdeal.Read.val_main_v29 (F := Ideal) (m ((c : Thread nD τ).loc main_arg1)) :=
  (W4_of_ne m ρ c main_v29 (by decide)).trans (at3_v29 m ρ c)
theorem keep4_arg3 : W4 (F := Ideal) m ρ c (Proc.devRef .tc main_arg3) = (m ((c : Thread nD τ).loc main_arg3)) :=
  (W4_of_ne m ρ c main_arg3 (by decide)).trans (at3_arg3 m ρ c)
theorem keep4_arg4 : W4 (F := Ideal) m ρ c (Proc.devRef .tc main_arg4) = (m ((c : Thread nD τ).loc main_arg4)) :=
  (W4_of_ne m ρ c main_arg4 (by decide)).trans (at3_arg4 m ρ c)
theorem keep4_arg5 : W4 (F := Ideal) m ρ c (Proc.devRef .tc main_arg5) = (m ((c : Thread nD τ).loc main_arg5)) :=
  (W4_of_ne m ρ c main_arg5 (by decide)).trans (at3_arg5 m ρ c)
theorem keep4_arg6 : W4 (F := Ideal) m ρ c (Proc.devRef .tc main_arg6) = (m ((c : Thread nD τ).loc main_arg6)) :=
  (W4_of_ne m ρ c main_arg6 (by decide)).trans (at3_arg6 m ρ c)
theorem keep4_arg7 : W4 (F := Ideal) m ρ c (Proc.devRef .tc main_arg7) = (m ((c : Thread nD τ).loc main_arg7)) :=
  (W4_of_ne m ρ c main_arg7 (by decide)).trans (at3_arg7 m ρ c)
theorem keep4_arg8 : W4 (F := Ideal) m ρ c (Proc.devRef .tc main_arg8) = (m ((c : Thread nD τ).loc main_arg8)) :=
  (W4_of_ne m ρ c main_arg8 (by decide)).trans (at3_arg8 m ρ c)
theorem keep4_arg9 : W4 (F := Ideal) m ρ c (Proc.devRef .tc main_arg9) = (m ((c : Thread nD τ).loc main_arg9)) :=
  (W4_of_ne m ρ c main_arg9 (by decide)).trans (at3_arg9 m ρ c)
theorem keep4_arg10 : W4 (F := Ideal) m ρ c (Proc.devRef .tc main_arg10) = (m ((c : Thread nD τ).loc main_arg10)) :=
  (W4_of_ne m ρ c main_arg10 (by decide)).trans (at3_arg10 m ρ c)
theorem keep4_arg11 : W4 (F := Ideal) m ρ c (Proc.devRef .tc main_arg11) = (m ((c : Thread nD τ).loc main_arg11)) :=
  (W4_of_ne m ρ c main_arg11 (by decide)).trans (at3_arg11 m ρ c)

/-! ## The first aggregation, the bias row, region 1 (the first bias addition) -/

set_option maxHeartbeats 4000000 in
/-- The aggregation along the edges (gather the products at each edge's source, scale by the edge's coefficient,
    sum into its target): the same host operations in both programs, applied to equal products. -/
theorem stage43 : W5 (F := Ideal) m ρ c (Proc.devRef .tc main_v43) = Cert.ReferenceIdeal.Read.val_main_v43 (F := Ideal) (m ((c : Thread nD τ).loc main_arg0)) (m ((c : Thread nD τ).loc main_arg1)) (m ((c : Thread nD τ).loc main_arg2)) := by
  show StableHlo.after hostOps1 (W4 m ρ c) (Proc.devRef .tc main_v43) = _
  after_results
  rw [stage30 m ρ c, keep4_v3 m ρ c, keep4_v6 m ρ c, keep4_v29 m ρ c]
  rfl

/-- The parameter vector reshaped to one row reads back as the vector. -/
theorem row44 : rowVec (n := 128) (W5 (F := Ideal) m ρ c (Proc.devRef .tc main_v44)) = (m ((c : Thread nD τ).loc main_arg3)) := by
  have h : W5 (F := Ideal) m ρ c (Proc.devRef .tc main_v44) = shapeCast S1x128 (W4 (F := Ideal) m ρ c (Proc.devRef .tc main_arg3)) shapeCasts_S128_S1x128 := by
    show StableHlo.after hostOps1 (W4 m ρ c) (Proc.devRef .tc main_v44) = _
    after_results
    rfl
  funext i
  obtain ⟨q, rfl⟩ : ∃ q : Fin 128, i = ix1 q := ⟨i 0, eq_ix1 i⟩
  rw [rowVec_apply, h, shapeCast_a_1a_apply, keep4_arg3 m ρ c]

/-- The first layer's bias addition. -/
theorem stage45 : W6 (F := Ideal) m ρ c (Proc.devRef .tc main_v45) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) :=
  (W6_arr m ρ c 2).trans ((arr1 (V5 m ρ) c).trans
    ((congrArg₂ (addRow (a := 100000) (n := 128)) (stage43 m ρ c) (row44 m ρ c)).trans
      (Ref.bias1 (x0 := (m ((c : Thread nD τ).loc main_arg0))) (x1 := (m ((c : Thread nD τ).loc main_arg1))) (x2 := (m ((c : Thread nD τ).loc main_arg2))) (x3 := (m ((c : Thread nD τ).loc main_arg3)))).symm))
theorem keep6_v3 : W6 (F := Ideal) m ρ c (Proc.devRef .tc main_v3) = Cert.ReferenceIdeal.Read.val_main_v3 (F := Ideal) (m ((c : Thread nD τ).loc main_arg1)) :=
  (W6_of_ne m ρ c main_v3 (by decide)).trans ((show StableHlo.after hostOps1 (W4 m ρ c) (Proc.devRef .tc main_v3) = W4 m ρ c (Proc.devRef .tc main_v3) from by
    after_results
    try rfl).trans (keep4_v3 m ρ c))
theorem keep6_v6 : W6 (F := Ideal) m ρ c (Proc.devRef .tc main_v6) = Cert.ReferenceIdeal.Read.val_main_v6 (F := Ideal) (m ((c : Thread nD τ).loc main_arg1)) :=
  (W6_of_ne m ρ c main_v6 (by decide)).trans ((show StableHlo.after hostOps1 (W4 m ρ c) (Proc.devRef .tc main_v6) = W4 m ρ c (Proc.devRef .tc main_v6) from by
    after_results
    try rfl).trans (keep4_v6 m ρ c))
theorem keep6_v29 : W6 (F := Ideal) m ρ c (Proc.devRef .tc main_v29) = Cert.ReferenceIdeal.Read.val_main_v29 (F := Ideal) (m ((c : Thread nD τ).loc main_arg1)) :=
  (W6_of_ne m ρ c main_v29 (by decide)).trans ((show StableHlo.after hostOps1 (W4 m ρ c) (Proc.devRef .tc main_v29) = W4 m ρ c (Proc.devRef .tc main_v29) from by
    after_results
    try rfl).trans (keep4_v29 m ρ c))
theorem keep6_arg4 : W6 (F := Ideal) m ρ c (Proc.devRef .tc main_arg4) = (m ((c : Thread nD τ).loc main_arg4)) :=
  (W6_of_ne m ρ c main_arg4 (by decide)).trans ((show StableHlo.after hostOps1 (W4 m ρ c) (Proc.devRef .tc main_arg4) = W4 m ρ c (Proc.devRef .tc main_arg4) from by
    after_results
    try rfl).trans (keep4_arg4 m ρ c))
theorem keep6_arg5 : W6 (F := Ideal) m ρ c (Proc.devRef .tc main_arg5) = (m ((c : Thread nD τ).loc main_arg5)) :=
  (W6_of_ne m ρ c main_arg5 (by decide)).trans ((show StableHlo.after hostOps1 (W4 m ρ c) (Proc.devRef .tc main_arg5) = W4 m ρ c (Proc.devRef .tc main_arg5) from by
    after_results
    try rfl).trans (keep4_arg5 m ρ c))
theorem keep6_arg6 : W6 (F := Ideal) m ρ c (Proc.devRef .tc main_arg6) = (m ((c : Thread nD τ).loc main_arg6)) :=
  (W6_of_ne m ρ c main_arg6 (by decide)).trans ((show StableHlo.after hostOps1 (W4 m ρ c) (Proc.devRef .tc main_arg6) = W4 m ρ c (Proc.devRef .tc main_arg6) from by
    after_results
    try rfl).trans (keep4_arg6 m ρ c))
theorem keep6_arg7 : W6 (F := Ideal) m ρ c (Proc.devRef .tc main_arg7) = (m ((c : Thread nD τ).loc main_arg7)) :=
  (W6_of_ne m ρ c main_arg7 (by decide)).trans ((show StableHlo.after hostOps1 (W4 m ρ c) (Proc.devRef .tc main_arg7) = W4 m ρ c (Proc.devRef .tc main_arg7) from by
    after_results
    try rfl).trans (keep4_arg7 m ρ c))
theorem keep6_arg8 : W6 (F := Ideal) m ρ c (Proc.devRef .tc main_arg8) = (m ((c : Thread nD τ).loc main_arg8)) :=
  (W6_of_ne m ρ c main_arg8 (by decide)).trans ((show StableHlo.after hostOps1 (W4 m ρ c) (Proc.devRef .tc main_arg8) = W4 m ρ c (Proc.devRef .tc main_arg8) from by
    after_results
    try rfl).trans (keep4_arg8 m ρ c))
theorem keep6_arg9 : W6 (F := Ideal) m ρ c (Proc.devRef .tc main_arg9) = (m ((c : Thread nD τ).loc main_arg9)) :=
  (W6_of_ne m ρ c main_arg9 (by decide)).trans ((show StableHlo.after hostOps1 (W4 m ρ c) (Proc.devRef .tc main_arg9) = W4 m ρ c (Proc.devRef .tc main_arg9) from by
    after_results
    try rfl).trans (keep4_arg9 m ρ c))
theorem keep6_arg10 : W6 (F := Ideal) m ρ c (Proc.devRef .tc main_arg10) = (m ((c : Thread nD τ).loc main_arg10)) :=
  (W6_of_ne m ρ c main_arg10 (by decide)).trans ((show StableHlo.after hostOps1 (W4 m ρ c) (Proc.devRef .tc main_arg10) = W4 m ρ c (Proc.devRef .tc main_arg10) from by
    after_results
    try rfl).trans (keep4_arg10 m ρ c))
theorem keep6_arg11 : W6 (F := Ideal) m ρ c (Proc.devRef .tc main_arg11) = (m ((c : Thread nD τ).loc main_arg11)) :=
  (W6_of_ne m ρ c main_arg11 (by decide)).trans ((show StableHlo.after hostOps1 (W4 m ρ c) (Proc.devRef .tc main_arg11) = W4 m ρ c (Proc.devRef .tc main_arg11) from by
    after_results
    try rfl).trans (keep4_arg11 m ρ c))

/-! ## The scale and shift rows, region 2 (the first normalisation), region 3 (the second product) -/

theorem kept45 : W7 (F := Ideal) m ρ c (Proc.devRef .tc main_v45) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) := (show StableHlo.after hostOps2 (W6 m ρ c) (Proc.devRef .tc main_v45) = W6 m ρ c (Proc.devRef .tc main_v45) from by
    after_results
    try rfl).trans (stage45 m ρ c)

/-- The parameter vector reshaped to one row reads back as the vector. -/
theorem row46 : rowVec (n := 128) (W7 (F := Ideal) m ρ c (Proc.devRef .tc main_v46)) = (m ((c : Thread nD τ).loc main_arg8)) := by
  have h : W7 (F := Ideal) m ρ c (Proc.devRef .tc main_v46) = shapeCast S1x128 (W6 (F := Ideal) m ρ c (Proc.devRef .tc main_arg8)) shapeCasts_S128_S1x128 := by
    show StableHlo.after hostOps2 (W6 m ρ c) (Proc.devRef .tc main_v46) = _
    after_results
    rfl
  funext i
  obtain ⟨q, rfl⟩ : ∃ q : Fin 128, i = ix1 q := ⟨i 0, eq_ix1 i⟩
  rw [rowVec_apply, h, shapeCast_a_1a_apply, keep6_arg8 m ρ c]

/-- The parameter vector reshaped to one row reads back as the vector. -/
theorem row47 : rowVec (n := 128) (W7 (F := Ideal) m ρ c (Proc.devRef .tc main_v47)) = (m ((c : Thread nD τ).loc main_arg9)) := by
  have h : W7 (F := Ideal) m ρ c (Proc.devRef .tc main_v47) = shapeCast S1x128 (W6 (F := Ideal) m ρ c (Proc.devRef .tc main_arg9)) shapeCasts_S128_S1x128 := by
    show StableHlo.after hostOps2 (W6 m ρ c) (Proc.devRef .tc main_v47) = _
    after_results
    rfl
  funext i
  obtain ⟨q, rfl⟩ : ∃ q : Fin 128, i = ix1 q := ⟨i 0, eq_ix1 i⟩
  rw [rowVec_apply, h, shapeCast_a_1a_apply, keep6_arg9 m ρ c]

/-- The first normalisation, scale, shift and clip. -/
theorem stage48 : W8 (F := Ideal) m ρ c (Proc.devRef .tc main_v48) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (W8_arr m ρ c 3).trans ((arr2 (V7 m ρ) c).trans
    ((congr (congrArg₂ (normRelu (a := 100000)) (kept45 m ρ c) (row46 m ρ c)) (row47 m ρ c)).trans
      (Ref.norm1 (x0 := (m ((c : Thread nD τ).loc main_arg0))) (x1 := (m ((c : Thread nD τ).loc main_arg1))) (x2 := (m ((c : Thread nD τ).loc main_arg2))) (x3 := (m ((c : Thread nD τ).loc main_arg3))) (x8 := (m ((c : Thread nD τ).loc main_arg8))) (x9 := (m ((c : Thread nD τ).loc main_arg9)))).symm))
theorem keep8_v3 : W8 (F := Ideal) m ρ c (Proc.devRef .tc main_v3) = Cert.ReferenceIdeal.Read.val_main_v3 (F := Ideal) (m ((c : Thread nD τ).loc main_arg1)) :=
  (W8_of_ne m ρ c main_v3 (by decide)).trans ((show StableHlo.after hostOps2 (W6 m ρ c) (Proc.devRef .tc main_v3) = W6 m ρ c (Proc.devRef .tc main_v3) from by
    after_results
    try rfl).trans (keep6_v3 m ρ c))
theorem keep8_v6 : W8 (F := Ideal) m ρ c (Proc.devRef .tc main_v6) = Cert.ReferenceIdeal.Read.val_main_v6 (F := Ideal) (m ((c : Thread nD τ).loc main_arg1)) :=
  (W8_of_ne m ρ c main_v6 (by decide)).trans ((show StableHlo.after hostOps2 (W6 m ρ c) (Proc.devRef .tc main_v6) = W6 m ρ c (Proc.devRef .tc main_v6) from by
    after_results
    try rfl).trans (keep6_v6 m ρ c))
theorem keep8_v29 : W8 (F := Ideal) m ρ c (Proc.devRef .tc main_v29) = Cert.ReferenceIdeal.Read.val_main_v29 (F := Ideal) (m ((c : Thread nD τ).loc main_arg1)) :=
  (W8_of_ne m ρ c main_v29 (by decide)).trans ((show StableHlo.after hostOps2 (W6 m ρ c) (Proc.devRef .tc main_v29) = W6 m ρ c (Proc.devRef .tc main_v29) from by
    after_results
    try rfl).trans (keep6_v29 m ρ c))
theorem keep8_arg4 : W8 (F := Ideal) m ρ c (Proc.devRef .tc main_arg4) = (m ((c : Thread nD τ).loc main_arg4)) :=
  (W8_of_ne m ρ c main_arg4 (by decide)).trans ((show StableHlo.after hostOps2 (W6 m ρ c) (Proc.devRef .tc main_arg4) = W6 m ρ c (Proc.devRef .tc main_arg4) from by
    after_results
    try rfl).trans (keep6_arg4 m ρ c))
theorem keep8_arg5 : W8 (F := Ideal) m ρ c (Proc.devRef .tc main_arg5) = (m ((c : Thread nD τ).loc main_arg5)) :=
  (W8_of_ne m ρ c main_arg5 (by decide)).trans ((show StableHlo.after hostOps2 (W6 m ρ c) (Proc.devRef .tc main_arg5) = W6 m ρ c (Proc.devRef .tc main_arg5) from by
    after_results
    try rfl).trans (keep6_arg5 m ρ c))
theorem keep8_arg6 : W8 (F := Ideal) m ρ c (Proc.devRef .tc main_arg6) = (m ((c : Thread nD τ).loc main_arg6)) :=
  (W8_of_ne m ρ c main_arg6 (by decide)).trans ((show StableHlo.after hostOps2 (W6 m ρ c) (Proc.devRef .tc main_arg6) = W6 m ρ c (Proc.devRef .tc main_arg6) from by
    after_results
    try rfl).trans (keep6_arg6 m ρ c))
theorem keep8_arg7 : W8 (F := Ideal) m ρ c (Proc.devRef .tc main_arg7) = (m ((c : Thread nD τ).loc main_arg7)) :=
  (W8_of_ne m ρ c main_arg7 (by decide)).trans ((show StableHlo.after hostOps2 (W6 m ρ c) (Proc.devRef .tc main_arg7) = W6 m ρ c (Proc.devRef .tc main_arg7) from by
    after_results
    try rfl).trans (keep6_arg7 m ρ c))
theorem keep8_arg10 : W8 (F := Ideal) m ρ c (Proc.devRef .tc main_arg10) = (m ((c : Thread nD τ).loc main_arg10)) :=
  (W8_of_ne m ρ c main_arg10 (by decide)).trans ((show StableHlo.after hostOps2 (W6 m ρ c) (Proc.devRef .tc main_arg10) = W6 m ρ c (Proc.devRef .tc main_arg10) from by
    after_results
    try rfl).trans (keep6_arg10 m ρ c))
theorem keep8_arg11 : W8 (F := Ideal) m ρ c (Proc.devRef .tc main_arg11) = (m ((c : Thread nD τ).loc main_arg11)) :=
  (W8_of_ne m ρ c main_arg11 (by decide)).trans ((show StableHlo.after hostOps2 (W6 m ρ c) (Proc.devRef .tc main_arg11) = W6 m ρ c (Proc.devRef .tc main_arg11) from by
    after_results
    try rfl).trans (keep6_arg11 m ρ c))

/-- The second layer's product. -/
theorem stage49 : W9 (F := Ideal) m ρ c (Proc.devRef .tc main_v49) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) :=
  (W9_arr m ρ c 2).trans ((arr3 (V8 m ρ) c).trans
    ((congrArg₂ (matProd (a := 100000) (k := 128) (n := 128)) (stage48 m ρ c) (keep8_arg4 m ρ c)).trans
      (Ref.prod2 (x0 := (m ((c : Thread nD τ).loc main_arg0))) (x1 := (m ((c : Thread nD τ).loc main_arg1))) (x2 := (m ((c : Thread nD τ).loc main_arg2))) (x3 := (m ((c : Thread nD τ).loc main_arg3))) (x4 := (m ((c : Thread nD τ).loc main_arg4))) (x8 := (m ((c : Thread nD τ).loc main_arg8))) (x9 := (m ((c : Thread nD τ).loc main_arg9)))).symm))
theorem keep9_v3 : W9 (F := Ideal) m ρ c (Proc.devRef .tc main_v3) = Cert.ReferenceIdeal.Read.val_main_v3 (F := Ideal) (m ((c : Thread nD τ).loc main_arg1)) :=
  (W9_of_ne m ρ c main_v3 (by decide)).trans (keep8_v3 m ρ c)
theorem keep9_v6 : W9 (F := Ideal) m ρ c (Proc.devRef .tc main_v6) = Cert.ReferenceIdeal.Read.val_main_v6 (F := Ideal) (m ((c : Thread nD τ).loc main_arg1)) :=
  (W9_of_ne m ρ c main_v6 (by decide)).trans (keep8_v6 m ρ c)
theorem keep9_v29 : W9 (F := Ideal) m ρ c (Proc.devRef .tc main_v29) = Cert.ReferenceIdeal.Read.val_main_v29 (F := Ideal) (m ((c : Thread nD τ).loc main_arg1)) :=
  (W9_of_ne m ρ c main_v29 (by decide)).trans (keep8_v29 m ρ c)
theorem keep9_arg5 : W9 (F := Ideal) m ρ c (Proc.devRef .tc main_arg5) = (m ((c : Thread nD τ).loc main_arg5)) :=
  (W9_of_ne m ρ c main_arg5 (by decide)).trans (keep8_arg5 m ρ c)
theorem keep9_arg6 : W9 (F := Ideal) m ρ c (Proc.devRef .tc main_arg6) = (m ((c : Thread nD τ).loc main_arg6)) :=
  (W9_of_ne m ρ c main_arg6 (by decide)).trans (keep8_arg6 m ρ c)
theorem keep9_arg7 : W9 (F := Ideal) m ρ c (Proc.devRef .tc main_arg7) = (m ((c : Thread nD τ).loc main_arg7)) :=
  (W9_of_ne m ρ c main_arg7 (by decide)).trans (keep8_arg7 m ρ c)
theorem keep9_arg10 : W9 (F := Ideal) m ρ c (Proc.devRef .tc main_arg10) = (m ((c : Thread nD τ).loc main_arg10)) :=
  (W9_of_ne m ρ c main_arg10 (by decide)).trans (keep8_arg10 m ρ c)
theorem keep9_arg11 : W9 (F := Ideal) m ρ c (Proc.devRef .tc main_arg11) = (m ((c : Thread nD τ).loc main_arg11)) :=
  (W9_of_ne m ρ c main_arg11 (by decide)).trans (keep8_arg11 m ρ c)

/-! ## The second aggregation, the bias row, region 4 (the second bias addition) -/

set_option maxHeartbeats 4000000 in
/-- The aggregation along the edges (gather the products at each edge's source, scale by the edge's coefficient,
    sum into its target): the same host operations in both programs, applied to equal products. -/
theorem stage62 : W10 (F := Ideal) m ρ c (Proc.devRef .tc main_v62) = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  show StableHlo.after hostOps4 (W9 m ρ c) (Proc.devRef .tc main_v62) = _
  after_results
  rw [stage49 m ρ c, keep9_v3 m ρ c, keep9_v6 m ρ c, keep9_v29 m ρ c]
  rfl

/-- The parameter vector reshaped to one row reads back as the vector. -/
theorem row63 : rowVec (n := 128) (W10 (F := Ideal) m ρ c (Proc.devRef .tc main_v63)) = (m ((c : Thread nD τ).loc main_arg5)) := by
  have h : W10 (F := Ideal) m ρ c (Proc.devRef .tc main_v63) = shapeCast S1x128 (W9 (F := Ideal) m ρ c (Proc.devRef .tc main_arg5)) shapeCasts_S128_S1x128 := by
    show StableHlo.after hostOps4 (W9 m ρ c) (Proc.devRef .tc main_v63) = _
    after_results
    rfl
  funext i
  obtain ⟨q, rfl⟩ : ∃ q : Fin 128, i = ix1 q := ⟨i 0, eq_ix1 i⟩
  rw [rowVec_apply, h, shapeCast_a_1a_apply, keep9_arg5 m ρ c]

/-- The second layer's bias addition. -/
theorem stage64 : W11 (F := Ideal) m ρ c (Proc.devRef .tc main_v64) = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) :=
  (W11_arr m ρ c 2).trans ((arr4 (V10 m ρ) c).trans
    ((congrArg₂ (addRow (a := 100000) (n := 128)) (stage62 m ρ c) (row63 m ρ c)).trans
      (Ref.bias2 (x0 := (m ((c : Thread nD τ).loc main_arg0))) (x1 := (m ((c : Thread nD τ).loc main_arg1))) (x2 := (m ((c : Thread nD τ).loc main_arg2))) (x3 := (m ((c : Thread nD τ).loc main_arg3))) (x4 := (m ((c : Thread nD τ).loc main_arg4))) (x5 := (m ((c : Thread nD τ).loc main_arg5))) (x8 := (m ((c : Thread nD τ).loc main_arg8))) (x9 := (m ((c : Thread nD τ).loc main_arg9)))).symm))
theorem keep11_v3 : W11 (F := Ideal) m ρ c (Proc.devRef .tc main_v3) = Cert.ReferenceIdeal.Read.val_main_v3 (F := Ideal) (m ((c : Thread nD τ).loc main_arg1)) :=
  (W11_of_ne m ρ c main_v3 (by decide)).trans ((show StableHlo.after hostOps4 (W9 m ρ c) (Proc.devRef .tc main_v3) = W9 m ρ c (Proc.devRef .tc main_v3) from by
    after_results
    try rfl).trans (keep9_v3 m ρ c))
theorem keep11_v6 : W11 (F := Ideal) m ρ c (Proc.devRef .tc main_v6) = Cert.ReferenceIdeal.Read.val_main_v6 (F := Ideal) (m ((c : Thread nD τ).loc main_arg1)) :=
  (W11_of_ne m ρ c main_v6 (by decide)).trans ((show StableHlo.after hostOps4 (W9 m ρ c) (Proc.devRef .tc main_v6) = W9 m ρ c (Proc.devRef .tc main_v6) from by
    after_results
    try rfl).trans (keep9_v6 m ρ c))
theorem keep11_v29 : W11 (F := Ideal) m ρ c (Proc.devRef .tc main_v29) = Cert.ReferenceIdeal.Read.val_main_v29 (F := Ideal) (m ((c : Thread nD τ).loc main_arg1)) :=
  (W11_of_ne m ρ c main_v29 (by decide)).trans ((show StableHlo.after hostOps4 (W9 m ρ c) (Proc.devRef .tc main_v29) = W9 m ρ c (Proc.devRef .tc main_v29) from by
    after_results
    try rfl).trans (keep9_v29 m ρ c))
theorem keep11_arg6 : W11 (F := Ideal) m ρ c (Proc.devRef .tc main_arg6) = (m ((c : Thread nD τ).loc main_arg6)) :=
  (W11_of_ne m ρ c main_arg6 (by decide)).trans ((show StableHlo.after hostOps4 (W9 m ρ c) (Proc.devRef .tc main_arg6) = W9 m ρ c (Proc.devRef .tc main_arg6) from by
    after_results
    try rfl).trans (keep9_arg6 m ρ c))
theorem keep11_arg7 : W11 (F := Ideal) m ρ c (Proc.devRef .tc main_arg7) = (m ((c : Thread nD τ).loc main_arg7)) :=
  (W11_of_ne m ρ c main_arg7 (by decide)).trans ((show StableHlo.after hostOps4 (W9 m ρ c) (Proc.devRef .tc main_arg7) = W9 m ρ c (Proc.devRef .tc main_arg7) from by
    after_results
    try rfl).trans (keep9_arg7 m ρ c))
theorem keep11_arg10 : W11 (F := Ideal) m ρ c (Proc.devRef .tc main_arg10) = (m ((c : Thread nD τ).loc main_arg10)) :=
  (W11_of_ne m ρ c main_arg10 (by decide)).trans ((show StableHlo.after hostOps4 (W9 m ρ c) (Proc.devRef .tc main_arg10) = W9 m ρ c (Proc.devRef .tc main_arg10) from by
    after_results
    try rfl).trans (keep9_arg10 m ρ c))
theorem keep11_arg11 : W11 (F := Ideal) m ρ c (Proc.devRef .tc main_arg11) = (m ((c : Thread nD τ).loc main_arg11)) :=
  (W11_of_ne m ρ c main_arg11 (by decide)).trans ((show StableHlo.after hostOps4 (W9 m ρ c) (Proc.devRef .tc main_arg11) = W9 m ρ c (Proc.devRef .tc main_arg11) from by
    after_results
    try rfl).trans (keep9_arg11 m ρ c))

/-! ## The scale and shift rows, region 5 (the second normalisation), region 6 (the third product) -/

theorem kept64 : W12 (F := Ideal) m ρ c (Proc.devRef .tc main_v64) = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := (show StableHlo.after hostOps5 (W11 m ρ c) (Proc.devRef .tc main_v64) = W11 m ρ c (Proc.devRef .tc main_v64) from by
    after_results
    try rfl).trans (stage64 m ρ c)

/-- The parameter vector reshaped to one row reads back as the vector. -/
theorem row65 : rowVec (n := 128) (W12 (F := Ideal) m ρ c (Proc.devRef .tc main_v65)) = (m ((c : Thread nD τ).loc main_arg10)) := by
  have h : W12 (F := Ideal) m ρ c (Proc.devRef .tc main_v65) = shapeCast S1x128 (W11 (F := Ideal) m ρ c (Proc.devRef .tc main_arg10)) shapeCasts_S128_S1x128 := by
    show StableHlo.after hostOps5 (W11 m ρ c) (Proc.devRef .tc main_v65) = _
    after_results
    rfl
  funext i
  obtain ⟨q, rfl⟩ : ∃ q : Fin 128, i = ix1 q := ⟨i 0, eq_ix1 i⟩
  rw [rowVec_apply, h, shapeCast_a_1a_apply, keep11_arg10 m ρ c]

/-- The parameter vector reshaped to one row reads back as the vector. -/
theorem row66 : rowVec (n := 128) (W12 (F := Ideal) m ρ c (Proc.devRef .tc main_v66)) = (m ((c : Thread nD τ).loc main_arg11)) := by
  have h : W12 (F := Ideal) m ρ c (Proc.devRef .tc main_v66) = shapeCast S1x128 (W11 (F := Ideal) m ρ c (Proc.devRef .tc main_arg11)) shapeCasts_S128_S1x128 := by
    show StableHlo.after hostOps5 (W11 m ρ c) (Proc.devRef .tc main_v66) = _
    after_results
    rfl
  funext i
  obtain ⟨q, rfl⟩ : ∃ q : Fin 128, i = ix1 q := ⟨i 0, eq_ix1 i⟩
  rw [rowVec_apply, h, shapeCast_a_1a_apply, keep11_arg11 m ρ c]

/-- The second normalisation, scale, shift and clip. -/
theorem stage67 : W13 (F := Ideal) m ρ c (Proc.devRef .tc main_v67) = Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) :=
  (W13_arr m ρ c 3).trans ((arr5 (V12 m ρ) c).trans
    ((congr (congrArg₂ (normRelu (a := 100000)) (kept64 m ρ c) (row65 m ρ c)) (row66 m ρ c)).trans
      (Ref.norm2 (x0 := (m ((c : Thread nD τ).loc main_arg0))) (x1 := (m ((c : Thread nD τ).loc main_arg1))) (x2 := (m ((c : Thread nD τ).loc main_arg2))) (x3 := (m ((c : Thread nD τ).loc main_arg3))) (x4 := (m ((c : Thread nD τ).loc main_arg4))) (x5 := (m ((c : Thread nD τ).loc main_arg5))) (x8 := (m ((c : Thread nD τ).loc main_arg8))) (x9 := (m ((c : Thread nD τ).loc main_arg9))) (x10 := (m ((c : Thread nD τ).loc main_arg10))) (x11 := (m ((c : Thread nD τ).loc main_arg11)))).symm))
theorem keep13_v3 : W13 (F := Ideal) m ρ c (Proc.devRef .tc main_v3) = Cert.ReferenceIdeal.Read.val_main_v3 (F := Ideal) (m ((c : Thread nD τ).loc main_arg1)) :=
  (W13_of_ne m ρ c main_v3 (by decide)).trans ((show StableHlo.after hostOps5 (W11 m ρ c) (Proc.devRef .tc main_v3) = W11 m ρ c (Proc.devRef .tc main_v3) from by
    after_results
    try rfl).trans (keep11_v3 m ρ c))
theorem keep13_v6 : W13 (F := Ideal) m ρ c (Proc.devRef .tc main_v6) = Cert.ReferenceIdeal.Read.val_main_v6 (F := Ideal) (m ((c : Thread nD τ).loc main_arg1)) :=
  (W13_of_ne m ρ c main_v6 (by decide)).trans ((show StableHlo.after hostOps5 (W11 m ρ c) (Proc.devRef .tc main_v6) = W11 m ρ c (Proc.devRef .tc main_v6) from by
    after_results
    try rfl).trans (keep11_v6 m ρ c))
theorem keep13_v29 : W13 (F := Ideal) m ρ c (Proc.devRef .tc main_v29) = Cert.ReferenceIdeal.Read.val_main_v29 (F := Ideal) (m ((c : Thread nD τ).loc main_arg1)) :=
  (W13_of_ne m ρ c main_v29 (by decide)).trans ((show StableHlo.after hostOps5 (W11 m ρ c) (Proc.devRef .tc main_v29) = W11 m ρ c (Proc.devRef .tc main_v29) from by
    after_results
    try rfl).trans (keep11_v29 m ρ c))
theorem keep13_arg6 : W13 (F := Ideal) m ρ c (Proc.devRef .tc main_arg6) = (m ((c : Thread nD τ).loc main_arg6)) :=
  (W13_of_ne m ρ c main_arg6 (by decide)).trans ((show StableHlo.after hostOps5 (W11 m ρ c) (Proc.devRef .tc main_arg6) = W11 m ρ c (Proc.devRef .tc main_arg6) from by
    after_results
    try rfl).trans (keep11_arg6 m ρ c))
theorem keep13_arg7 : W13 (F := Ideal) m ρ c (Proc.devRef .tc main_arg7) = (m ((c : Thread nD τ).loc main_arg7)) :=
  (W13_of_ne m ρ c main_arg7 (by decide)).trans ((show StableHlo.after hostOps5 (W11 m ρ c) (Proc.devRef .tc main_arg7) = W11 m ρ c (Proc.devRef .tc main_arg7) from by
    after_results
    try rfl).trans (keep11_arg7 m ρ c))

/-- The third layer's product (64 output lanes). -/
theorem stage68 : W14 (F := Ideal) m ρ c (Proc.devRef .tc main_v68) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) :=
  (W14_arr m ρ c 2).trans ((arr6 (V13 m ρ) c).trans
    ((congrArg₂ (matProd (a := 100000) (k := 128) (n := 64)) (stage67 m ρ c) (keep13_arg6 m ρ c)).trans
      (Ref.prod3 (x0 := (m ((c : Thread nD τ).loc main_arg0))) (x1 := (m ((c : Thread nD τ).loc main_arg1))) (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x8 := (m ((c : Thread nD τ).loc main_arg8))) (x9 := (m ((c : Thread nD τ).loc main_arg9))) (x10 := (m ((c : Thread nD τ).loc main_arg10))) (x11 := (m ((c : Thread nD τ).loc main_arg11)))).symm))
theorem keep14_v3 : W14 (F := Ideal) m ρ c (Proc.devRef .tc main_v3) = Cert.ReferenceIdeal.Read.val_main_v3 (F := Ideal) (m ((c : Thread nD τ).loc main_arg1)) :=
  (W14_of_ne m ρ c main_v3 (by decide)).trans (keep13_v3 m ρ c)
theorem keep14_v6 : W14 (F := Ideal) m ρ c (Proc.devRef .tc main_v6) = Cert.ReferenceIdeal.Read.val_main_v6 (F := Ideal) (m ((c : Thread nD τ).loc main_arg1)) :=
  (W14_of_ne m ρ c main_v6 (by decide)).trans (keep13_v6 m ρ c)
theorem keep14_v29 : W14 (F := Ideal) m ρ c (Proc.devRef .tc main_v29) = Cert.ReferenceIdeal.Read.val_main_v29 (F := Ideal) (m ((c : Thread nD τ).loc main_arg1)) :=
  (W14_of_ne m ρ c main_v29 (by decide)).trans (keep13_v29 m ρ c)
theorem keep14_arg7 : W14 (F := Ideal) m ρ c (Proc.devRef .tc main_arg7) = (m ((c : Thread nD τ).loc main_arg7)) :=
  (W14_of_ne m ρ c main_arg7 (by decide)).trans (keep13_arg7 m ρ c)

/-! ## The third aggregation, the bias row, region 7 (the third bias addition): the result -/

set_option maxHeartbeats 4000000 in
/-- The aggregation along the edges (gather the products at each edge's source, scale by the edge's coefficient,
    sum into its target): the same host operations in both programs, applied to equal products. -/
theorem stage81 : W15 (F := Ideal) m ρ c (Proc.devRef .tc main_v81) = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := by
  show StableHlo.after hostOps7 (W14 m ρ c) (Proc.devRef .tc main_v81) = _
  after_results
  rw [stage68 m ρ c, keep14_v3 m ρ c, keep14_v6 m ρ c, keep14_v29 m ρ c]
  rfl

/-- The parameter vector reshaped to one row reads back as the vector. -/
theorem row82 : rowVec (n := 64) (W15 (F := Ideal) m ρ c (Proc.devRef .tc main_v82)) = (m ((c : Thread nD τ).loc main_arg7)) := by
  have h : W15 (F := Ideal) m ρ c (Proc.devRef .tc main_v82) = shapeCast S1x64 (W14 (F := Ideal) m ρ c (Proc.devRef .tc main_arg7)) shapeCasts_S64_S1x64 := by
    show StableHlo.after hostOps7 (W14 m ρ c) (Proc.devRef .tc main_v82) = _
    after_results
    rfl
  funext i
  obtain ⟨q, rfl⟩ : ∃ q : Fin 64, i = ix1 q := ⟨i 0, eq_ix1 i⟩
  rw [rowVec_apply, h, shapeCast_a_1a_apply, keep14_arg7 m ρ c]

/-- THE RESULT: the last boundary's contents at the result buffer are the reference's result stage of the arguments. -/
theorem result83 : W16 (F := Ideal) m ρ c (Proc.devRef .tc main_v83) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W16_arr m ρ c 2).trans ((arr7 (V15 m ρ) c).trans
    ((congrArg₂ (addRow (a := 100000) (n := 64)) (stage81 m ρ c) (row82 m ρ c)).trans
      (Ref.bias3 (x0 := (m ((c : Thread nD τ).loc main_arg0))) (x1 := (m ((c : Thread nD τ).loc main_arg1))) (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) (x9 := (m ((c : Thread nD τ).loc main_arg9))) (x10 := (m ((c : Thread nD τ).loc main_arg10))) (x11 := (m ((c : Thread nD τ).loc main_arg11)))).symm))

end Cert.GraphConv.Ker

end
-- ==== Proof.lean ====
/-
  The certificate of a three-layer graph convolution network: a kernel program whose dense stages run as eight
  tiled kernel regions, against a reference made of whole-array host operations.

  Both programs compute, for 100000 nodes with 128 features and 1000000 edges (self loops appended), three layers of
    features ↦ (features · W), gathered at each edge's source, scaled by the edge's coefficient
               1/√deg(source) · 1/√deg(target), summed into the edge's target, plus a bias row,
  with a row-wise normalisation (mean and variance over the 128 lanes, epsilon under the reciprocal square root,
  lane-wise scale and shift) and a clip at zero between layers. The kernel program runs the products, the bias
  additions and the normalisations as regions over blocks of 4000 rows; the degree count, the gathers and the
  scatter-additions are the same host operations in both programs.

  On the extended reals the two results are equal entry by entry, with no condition on the inputs: each dense
  stage acts on one node's row at a time and is evaluated in the same order of operations by both programs (the
  casts to a narrower float format on the way into the products are the identity there), so tiling the rows changes
  nothing; and the shared host operations are applied to equal values. Finiteness of the inputs is never used.

  The frames: the two kernel programs' are the generated frame certificates; the reference's is its run with the
  result dropped. The idealization rewrote no operation, so there is nothing to preserve.
-/
import proofs.«136163_j70188355551853_1_alg».proof.Defs
import proofs.«136163_j70188355551853_1_alg».proof.Proof.Gen.Kernel
import proofs.«136163_j70188355551853_1_alg».proof.Proof.Gen.Kernel.Skeleton
import proofs.«136163_j70188355551853_1_alg».proof.Proof.Gen.Kernel.Launch
import proofs.«136163_j70188355551853_1_alg».proof.Proof.Gen.Kernel.Points
import proofs.«136163_j70188355551853_1_alg».proof.Proof.Gen.Kernel.Frame
import proofs.«136163_j70188355551853_1_alg».proof.Proof.Gen.KernelIdeal
import proofs.«136163_j70188355551853_1_alg».proof.Proof.Gen.KernelIdeal.Skeleton
import proofs.«136163_j70188355551853_1_alg».proof.Proof.Gen.KernelIdeal.Launch
import proofs.«136163_j70188355551853_1_alg».proof.Proof.Gen.KernelIdeal.Points
import proofs.«136163_j70188355551853_1_alg».proof.Proof.Gen.KernelIdeal.Frame
import proofs.«136163_j70188355551853_1_alg».proof.Proof.Gen.ReferenceIdeal
import proofs.«136163_j70188355551853_1_alg».proof.Proof.Gen.Pre_finite_inputs
import proofs.«136163_j70188355551853_1_alg».proof.Proof.RefRun
import proofs.«136163_j70188355551853_1_alg».proof.Proof.RefRead
import proofs.«136163_j70188355551853_1_alg».proof.Proof.KernelRun
import proofs.«136163_j70188355551853_1_alg».proof.Proof.Boundaries
import Idealize.ShloMosaic.Adequacy
import Idealize.ShloMosaic.Init

noncomputable section

namespace Cert.Proof

open Idealize.ShloMosaic Idealize.ShloMosaic.TcCoe Idealize.SL.Sem

/-- The word-level kernel program runs, nothing faulting, its arguments unchanged. -/
theorem frame_kernel [Cert.Kernel.Facts] [Cert.Pre_finite_inputs.Facts] : Cert.frame_Kernel :=
  fun m ρ _ => Cert.Kernel.Gen.frame m ρ

/-- The idealized kernel program runs, nothing faulting, its arguments unchanged. -/
theorem frame_kernelIdeal [Cert.KernelIdeal.Facts] [Cert.Pre_finite_inputs.Facts] : Cert.frame_KernelIdeal :=
  fun m ρ _ => Cert.KernelIdeal.Gen.frame m ρ

/-- The reference runs, its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories agreeing on the arguments both idealized programs run, and the kernel program's result buffer —
    the last segment boundary's contents — is the reference's result stage of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W16 (F := Ideal) m ρ c (Proc.devRef .tc Cert.KernelIdeal.main_v83),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v130_eq, h0, h1, h2, h3, h4, h5, h6, h7, h8, h9, h10, h11]
  exact (Cert.GraphConv.Ker.result83 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
